-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x64 : Shape := ⟨2, ![256, 64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S256x64 : S_.BroadcastsInDim S256x64 (![] : Fin 0 → Fin S256x64.rank)
  reducesTo_S256x64_S_d0_1 : S256x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x2 .f32) (main_arg15 : FVec F S2 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x2 .f32 := Host.absf main_arg14
  let main_cst_22 : FVec F S_ .f32 := constant S_ .f32 0x7F800000#32
  let main_v60 : FVec F S64x2 .f32 := broadcastInDim S64x2 ![] bcast_S_S64x2 main_cst_22
  let main_v61 : IVec S64x2 1 := cmpf .olt main_v59 main_v60
  let main_c_23 : IVec S_ 1 := constantI S_ 1 1#1
  let main_v62 : IVec S_ 1 := (fun x v => Host.reduce IntOp.andi x v reducesTo_S64x2_S_d0_1 h_S_) main_v61 main_c_23
  let main_v63 : IVec S_ 1 := andi main_v58 main_v62
  let main_v64 : FVec F S2 .f32 := Host.absf main_arg15
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg9 : FVec F S64 .f32) (main_arg10 : FVec F S64x1 .f32) (main_arg11 : FVec F S1 .f32) (main_arg12 : FVec F S256x64 .f32) (main_arg13 : FVec F S64 .f32) (main_arg14 : FVec F S64x2 .f32) (main_arg15 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S256x64 .f32 := Host.absf main_arg12
  let main_cst_18 : FVec F S_ .f32 := constant S_ .f32 0x7F800000#32
  let main_v50 : FVec F S256x64 .f32 := broadcastInDim S256x64 ![] bcast_S_S256x64 main_cst_18
  fn_part3 (F := F) main_arg13 main_arg14 main_arg15 main_v48 main_v49 main_v50

def fn_part1 {F : FTy → Type} [FloatOps F] (main_arg6 : FVec F S256x128 .f32) (main_arg7 : FVec F S128 .f32) (main_arg8 : FVec F S128x64 .f32) (main_arg9 : FVec F S64 .f32) (main_arg10 : FVec F S64x1 .f32) (main_arg11 : FVec F S1 .f32) (main_arg12 : FVec F S256x64 .f32) (main_arg13 : FVec F S64 .f32) (main_arg14 : FVec F S64x2 .f32) (main_arg15 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : FVec F S100000x128 .f32) (main_arg2 : IVec S500000 32) (main_arg3 : IVec S500000 32) (main_arg4 : FVec F S256x256 .f32) (main_arg5 : FVec F S256 .f32) (main_arg6 : FVec F S256x128 .f32) (main_arg7 : FVec F S128 .f32) (main_arg8 : FVec F S128x64 .f32) (main_arg9 : FVec F S64 .f32) (main_arg10 : FVec F S64x1 .f32) (main_arg11 : FVec F S1 .f32) (main_arg12 : FVec F S256x64 .f32) (main_arg13 : FVec F S64 .f32) (main_arg14 : FVec F S64x2 .f32) (main_arg15 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S500000 : Shape := ⟨1, ![500000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x64 : Shape := ⟨2, ![256, 64]⟩
abbrev S64x2 : Shape := ⟨2, ![64, 2]⟩
abbrev S2 : Shape := ⟨1, ![2]⟩
abbrev S_ : Shape := ⟨0, ![]⟩
abbrev S500000x1 : Shape := ⟨2, ![500000, 1]⟩
abbrev S500000x128 : Shape := ⟨2, ![500000, 128]⟩
abbrev S128x256 : Shape := ⟨2, ![128, 256]⟩
abbrev S1x256 : Shape := ⟨2, ![1, 256]⟩
abbrev S1x128 : Shape := ⟨2, ![1, 128]⟩
abbrev S1x64 : Shape := ⟨2, ![1, 64]⟩
abbrev S1x1 : Shape := ⟨2, ![1, 1]⟩
abbrev S1x2 : Shape := ⟨2, ![1, 2]⟩
abbrev S4000x128 : Shape := ⟨2, ![4000, 128]⟩
abbrev S4000x1 : Shape := ⟨2, ![4000, 1]⟩
abbrev S4000 : Shape := ⟨1, ![4000]⟩
abbrev S4000x256 : Shape := ⟨2, ![4000, 256]⟩
abbrev S4000x64 : Shape := ⟨2, ![4000, 64]⟩
abbrev S4000x2 : Shape := ⟨2, ![4000, 2]⟩

abbrev nBuf : Space → Nat
  | .hbm => 56
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S500000, .i32⟩
  | .hbm, ⟨3, _⟩ => ⟨S500000, .i32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S256x64, .f32⟩
  | .hbm, ⟨13, _⟩ => ⟨S64, .f32⟩
  | .hbm, ⟨14, _⟩ => ⟨S64x2, .f32⟩
  | .hbm, ⟨15, _⟩ => ⟨S2, .f32⟩
  | .hbm, ⟨16, _⟩ => ⟨S100000x128, .bf16⟩
  | .hbm, ⟨17, _⟩ => ⟨S100000x128, .bf16⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x128, .bf16⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x128, .bf16⟩
  | .hbm, ⟨36, _⟩ => ⟨S128x256, .f32⟩
  | .hbm, ⟨37, _⟩ => ⟨S128x256, .bf16⟩
  | .hbm, ⟨38, _⟩ => ⟨S128x256, .f32⟩
  | .hbm, ⟨39, _⟩ => ⟨S128x256, .bf16⟩
  | .hbm, ⟨40, _⟩ => ⟨S128x64, .f32⟩
  | .hbm, ⟨41, _⟩ => ⟨S128x64, .bf16⟩
  | .hbm, ⟨42, _⟩ => ⟨S128x64, .f32⟩
  | .hbm, ⟨43, _⟩ => ⟨S128x64, .bf16⟩
  | .hbm, ⟨44, _⟩ => ⟨S256x128, .bf16⟩
  | .hbm, ⟨45, _⟩ => ⟨S128x64, .bf16⟩
  | .hbm, ⟨46, _⟩ => ⟨S64x1, .bf16⟩
  | .hbm, ⟨47, _⟩ => ⟨S64x2, .bf16⟩
  | .hbm, ⟨48, _⟩ => ⟨S1x256, .f32⟩
  | .hbm, ⟨49, _⟩ => ⟨S1x128, .f32⟩
  | .hbm, ⟨50, _⟩ => ⟨S1x64, .f32⟩
  | .hbm, ⟨51, _⟩ => ⟨S1x1, .f32⟩
  | .hbm, ⟨52, _⟩ => ⟨S1x64, .f32⟩
  | .hbm, ⟨53, _⟩ => ⟨S1x2, .f32⟩
  | .hbm, ⟨54, _⟩ => ⟨S500000x1, .f32⟩
  | .hbm, ⟨55, _⟩ => ⟨S500000, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S256x128, .bf16⟩
  | .local _ .vmem, ⟨8, _⟩ => ⟨S1x128, .f32⟩
  | .local _ .vmem, ⟨9, _⟩ => ⟨S128x64, .bf16⟩
  | .local _ .vmem, ⟨10, _⟩ => ⟨S1x64, .f32⟩
  | .local _ .vmem, ⟨11, _⟩ => ⟨S64x1, .bf16⟩
  | .local _ .vmem, ⟨12, _⟩ => ⟨S1x1, .f32⟩
  | .local _ .vmem, ⟨13, _⟩ => ⟨S128x64, .bf16⟩
  | .local _ .vmem, ⟨14, _⟩ => ⟨S128x64, .bf16⟩
  | .local _ .vmem, ⟨15, _⟩ => ⟨S1x64, .f32⟩
  | .local _ .vmem, ⟨16, _⟩ => ⟨S64x2, .bf16⟩
  | .local _ .vmem, ⟨17, _⟩ => ⟨S1x2, .f32⟩
  | .local _ .vmem, ⟨18, _⟩ => ⟨S4000x1, .f32⟩
  | .local _ .vmem, ⟨19, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x2 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4000x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  slices_S256x256_S128x256_0_0 : S256x256.Slices ![0, 0] S128x256
  slices_S256x256_S128x256_128_0 : S256x256.Slices ![128, 0] S128x256
  slices_S256x64_S128x64_0_0 : S256x64.Slices ![0, 0] S128x64
  slices_S256x64_S128x64_128_0 : S256x64.Slices ![128, 0] S128x64
  shapeCasts_S256_S1x256 : S256.ShapeCasts S1x256
  shapeCasts_S128_S1x128 : S128.ShapeCasts S1x128
  shapeCasts_S64_S1x64 : S64.ShapeCasts S1x64
  shapeCasts_S1_S1x1 : S1.ShapeCasts S1x1
  shapeCasts_S2_S1x2 : S2.ShapeCasts S1x2
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  reduces_S4000x2_S4000 : S4000x2.Reduces [1] S4000
  broadcasts_S4000x1_S4000x2 : S4000x1.Broadcasts S4000x2
  slices_S4000x2_o0_0_S4000x1 : S4000x2.Slices ![0, 0] S4000x1
  slices_S4000x2_o0_1_S4000x1 : S4000x2.Slices ![0, 1] S4000x1
  inb_S4000x1_S4000x1_0_0 : ∀ a, (![0, 0] : Fin 2 → Nat) a + S4000x1.size a ≤ S4000x1.size a
  h_S4000x1 : 0 < S4000x1.numel
  shapeCasts_S500000x1_S500000 : S500000x1.ShapeCasts S500000
  gather_S100000x128_S500000x1_S500000x128_1_0_n_n_0_1_1128_wf : GatherDims.WF S100000x128 S500000x1 S500000x128 [1] [0] [] [0] [] 1 ![1, 128]
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  dot_S4000x128_S128x64_S4000x64_1_0_0_1_n_n_wf : DotDims.WF S4000x128 S128x64 S4000x64 [1] [0] [0] [1] [] []
  dot_S4000x64_S64x1_S4000x1_1_0_0_1_n_n_wf : DotDims.WF S4000x64 S64x1 S4000x1 [1] [0] [0] [1] [] []
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .bf16 = 32 ∨ (Rect.block (s := S500000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .bf16 = 32 ∨ (Rect.block (s := S500000x128) S4000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .bf16 = 32 ∨ (Rect.block (s := S64x1) S64x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .bf16 = 32 ∨ (Rect.block (s := S128x64) S128x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .bf16 = 32 ∨ (Rect.block (s := S128x64) S128x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x2.size a ≤ S64x2.size a
  hwx0_14 : ∀ i : grid0.Coords, EltTy.bits .bf16 = 32 ∨ (Rect.block (s := S64x2) S64x2.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x2.size a ≤ S1x2.size a
  hwx0_15 : ∀ i : grid0.Coords, EltTy.bits .f32 = 32 ∨ (Rect.block (s := S1x2) S1x2.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4000x1.size a ≤ S500000x1.size a
  hwx0_16 : ∀ i : grid0.Coords, EltTy.bits .f32 = 32 ∨ (Rect.block (s := S500000x1) S4000x1.size (cc0_transform_16 i) (hinb0_16 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_v8) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v32) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27) S64x2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v33) S1x2.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v34) S4000x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S100000x128 : Shape := ⟨2, ![100000, 128]⟩
abbrev S500000 : Shape := ⟨1, ![500000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x64 : Shape := ⟨2, ![256, 64]⟩
abbrev S64x2 : Shape := ⟨2, ![64, 2]⟩
abbrev S2 : Shape := ⟨1, ![2]⟩
abbrev S_ : Shape := ⟨0, ![]⟩
abbrev S500000x1 : Shape := ⟨2, ![500000, 1]⟩
abbrev S500000x128 : Shape := ⟨2, ![500000, 128]⟩
abbrev S500000x256 : Shape := ⟨2, ![500000, 256]⟩
abbrev S1x256 : Shape := ⟨2, ![1, 256]⟩
abbrev S1x128 : Shape := ⟨2, ![1, 128]⟩
abbrev S500000x64 : Shape := ⟨2, ![500000, 64]⟩
abbrev S1x64 : Shape := ⟨2, ![1, 64]⟩
abbrev S1x1 : Shape := ⟨2, ![1, 1]⟩
abbrev S500000x2 : Shape := ⟨2, ![500000, 2]⟩
abbrev S1x2 : Shape := ⟨2, ![1, 2]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S500000, .i32⟩
  | .hbm, ⟨3, _⟩ => ⟨S500000, .i32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S256x64, .f32⟩
  | .hbm, ⟨13, _⟩ => ⟨S64, .f32⟩
  | .hbm, ⟨14, _⟩ => ⟨S64x2, .f32⟩
  | .hbm, ⟨15, _⟩ => ⟨S2, .f32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x128, .f32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .f32⟩
  | .hbm, ⟨34, _⟩ => ⟨S500000x256, .f32⟩
  | .hbm, ⟨35, _⟩ => ⟨S500000x128, .f32⟩
  | .hbm, ⟨36, _⟩ => ⟨S_, .f32⟩
  | .hbm, ⟨37, _⟩ => ⟨S500000, .f32⟩
  | .hbm, ⟨38, _⟩ => ⟨S500000x256, .f32⟩
  | .hbm, ⟨39, _⟩ => ⟨S1x256, .f32⟩
  | .hbm, ⟨40, _⟩ => ⟨S500000x256, .f32⟩
  | .hbm, ⟨41, _⟩ => ⟨S500000x256, .f32⟩
  | .hbm, ⟨42, _⟩ => ⟨S_, .f32⟩
  | .hbm, ⟨43, _⟩ => ⟨S500000x256, .f32⟩
  | .hbm, ⟨44, _⟩ => ⟨S500000x256, .f32⟩
  | .hbm, ⟨45, _⟩ => ⟨S500000x128, .f32⟩
  | .hbm, ⟨46, _⟩ => ⟨S1x128, .f32⟩
  | .hbm, ⟨47, _⟩ => ⟨S500000x128, .f32⟩
  | .hbm, ⟨48, _⟩ => ⟨S500000x128, .f32⟩
  | .hbm, ⟨49, _⟩ => ⟨S_, .f32⟩
  | .hbm, ⟨50, _⟩ => ⟨S500000x128, .f32⟩
  | .hbm, ⟨51, _⟩ => ⟨S500000x128, .f32⟩
  | .hbm, ⟨52, _⟩ => ⟨S500000x64, .f32⟩
  | .hbm, ⟨53, _⟩ => ⟨S1x64, .f32⟩
  | .hbm, ⟨54, _⟩ => ⟨S500000x64, .f32⟩
  | .hbm, ⟨55, _⟩ => ⟨S500000x64, .f32⟩
  | .hbm, ⟨56, _⟩ => ⟨S_, .f32⟩
  | .hbm, ⟨57, _⟩ => ⟨S500000x64, .f32⟩
  | .hbm, ⟨58, _⟩ => ⟨S500000x64, .f32⟩
  | .hbm, ⟨59, _⟩ => ⟨S500000x1, .f32⟩
  | .hbm, ⟨60, _⟩ => ⟨S1x1, .f32⟩
  | .hbm, ⟨61, _⟩ => ⟨S500000x1, .f32⟩
  | .hbm, ⟨62, _⟩ => ⟨S500000x1, .f32⟩
  | .hbm, ⟨63, _⟩ => ⟨S500000, .f32⟩
  | .hbm, ⟨64, _⟩ => ⟨S500000x64, .f32⟩
  | .hbm, ⟨65, _⟩ => ⟨S1x64, .f32⟩
  | .hbm, ⟨66, _⟩ => ⟨S500000x64, .f32⟩
  | .hbm, ⟨67, _⟩ => ⟨S500000x64, .f32⟩
  | .hbm, ⟨68, _⟩ => ⟨S_, .f32⟩
  | .hbm, ⟨69, _⟩ => ⟨S500000x64, .f32⟩
  | .hbm, ⟨70, _⟩ => ⟨S500000x64, .f32⟩
  | .hbm, ⟨71, _⟩ => ⟨S500000x2, .f32⟩
  | .hbm, ⟨72, _⟩ => ⟨S1x2, .f32⟩
  | .hbm, ⟨73, _⟩ => ⟨S500000x2, .f32⟩
  | .hbm, ⟨74, _⟩ => ⟨S500000x2, .f32⟩
  | .hbm, ⟨75, _⟩ => ⟨S_, .f32⟩
  | .hbm, ⟨76, _⟩ => ⟨S500000, .f32⟩
  | .hbm, ⟨77, _⟩ => ⟨S_, .f32⟩
  | .hbm, ⟨78, _⟩ => ⟨S500000, .f32⟩
  | .hbm, ⟨79, _⟩ => ⟨S500000, .f32⟩
  | .hbm, ⟨80, _⟩ => ⟨S500000x1, .f32⟩
  | .hbm, ⟨81, _⟩ => ⟨S500000x2, .f32⟩
  | .hbm, ⟨82, _⟩ => ⟨S500000x2, .f32⟩
  | .hbm, ⟨83, _⟩ => ⟨S500000x2, .f32⟩
  | .hbm, ⟨84, _⟩ => ⟨S_, .f32⟩
  | .hbm, ⟨85, _⟩ => ⟨S500000, .f32⟩
  | .hbm, ⟨86, _⟩ => ⟨S500000x1, .f32⟩
  | .hbm, ⟨87, _⟩ => ⟨S500000x2, .f32⟩
  | .hbm, ⟨88, _⟩ => ⟨S500000x2, .f32⟩
  | .hbm, ⟨89, _⟩ => ⟨S500000x1, .f32⟩
  | .hbm, ⟨90, _⟩ => ⟨S500000, .f32⟩
  | .hbm, ⟨91, _⟩ => ⟨S500000, .f32⟩
  | .hbm, ⟨92, _⟩ => ⟨S500000x1, .f32⟩
  | .hbm, ⟨93, _⟩ => ⟨S500000, .f32⟩
  | .hbm, ⟨94, _⟩ => ⟨S500000, .f32⟩
  | .hbm, ⟨95, _⟩ => ⟨S500000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call0_cst : Ref sig .tc := ⟨.hbm, 42, rfl⟩
abbrev main_call0_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call1_cst : Ref sig .tc := ⟨.hbm, 49, rfl⟩
abbrev main_call1_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call2_cst : Ref sig .tc := ⟨.hbm, 56, rfl⟩
abbrev main_call2_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call3_cst : Ref sig .tc := ⟨.hbm, 68, rfl⟩
abbrev main_call3_v0 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_3 : Ref sig .tc := ⟨.hbm, 75, rfl⟩
abbrev main_v46 : Ref sig .tc := ⟨.hbm, 76, rfl⟩
abbrev main_cst_4 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_5 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  reducesTo_S500000x128_S500000_d1 : S500000x128.ReducesTo [1] S500000
  h_S_ : 0 < S_.numel
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  reducesTo_S500000x2_S500000_d1 : S500000x2.ReducesTo [1] S500000
  bcast_S500000x1_S500000x2_0_1 : S500000x1.BroadcastsInDim S500000x2 (![0, 1] : Fin 2 → Fin S500000x2.rank)
  slices_S500000x2_S500000x1_0_0 : S500000x2.Slices ![0, 0] S500000x1
  slices_S500000x2_S500000x1_0_1 : S500000x2.Slices ![0, 1] S500000x1
  gather_S100000x128_S500000x1_S500000x128_1_0_n_n_0_1_1128_wf : GatherDims.WF S100000x128 S500000x1 S500000x128 [1] [0] [] [0] [] 1 ![1, 128]
  dot_S500000x256_S256x256_S500000x256_1_0_0_1_n_n_wf : DotDims.WF S500000x256 S256x256 S500000x256 [1] [0] [0] [1] [] []
  dot_S500000x256_S256x128_S500000x128_1_0_0_1_n_n_wf : DotDims.WF S500000x256 S256x128 S500000x128 [1] [0] [0] [1] [] []
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []
  dot_S500000x256_S256x64_S500000x64_1_0_0_1_n_n_wf : DotDims.WF S500000x256 S256x64 S500000x64 [1] [0] [0] [1] [] []
  dot_S500000x64_S64x2_S500000x2_1_0_0_1_n_n_wf : DotDims.WF S500000x64 S64x2 S500000x2 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf
def dot_S500000x256_S256x64_S500000x64_1_0_0_1_n_n : DotDims S500000x256 S256x64 S500000x64 where
  lhsContracting := [1]
  rhsContracting := [0]
  lhsNonContracting := [0]
  rhsNonContracting := [1]
  lhsBatch := []
  rhsBatch := []
  wf := dot_S500000x256_S256x64_S500000x64_1_0_0_1_n_n_wf
def dot_S500000x64_S64x2_S500000x2_1_0_0_1_n_n : DotDims S500000x64 S64x2 S500000x2 where
  lhsContracting := [1]
  rhsContracting := [0]
  lhsNonContracting := [0]
  rhsNonContracting := [1]
  lhsBatch := []
  rhsBatch := []
  wf := dot_S500000x64_S64x2_S500000x2_1_0_0_1_n_n_wf

class Facts : Prop extends Facts₀ where

variable [Facts]
-- ==== Proof.EdgeScore.lean ====
/-
  The score of one edge, as a function of the edge's two embedding rows and of the weights, on the extended reals.

  An edge carries a user row s and an item row d, each of 128 entries. Its score mixes two numbers:
    * the inner product  ⟨s, d⟩ = Σ_k s_k · d_k;
    * the output of a four-layer perceptron fed the 256-entry row (s, d) laid end to end: three hidden layers
      x ↦ max (x·W + b, 0) of widths 256, 128 and 64, and a last linear layer of width 1;
  with weights given by a two-way softmax of a second, two-layer perceptron fed the same row:
      score = g₀ · ⟨s, d⟩ + g₁ · mlp,   (g₀, g₁) = softmax (z₀, z₁),
  the softmax written as it is computed: with M = max (−∞, max over the pair), gᵢ = exp (zᵢ − M) / Σ_k exp (z_k − M).

  A first layer eats the joined row (s, d) through a 256-row weight matrix W. Its product with the joined row is the
  sum of the product of s with the first 128 rows of W and of d with the last 128 rows: a sum over 256 positions is the
  sum over the first 128 plus the sum over the last 128 (`sum_split`). Only commutativity and associativity of addition are
  used, so the law holds for every extended real, the infinities included.
-/
import Idealize.ShloMosaic.PureOps.Ideal
import Idealize.ShloMosaic.PureOps.Ideal.Laws
import Idealize.ShloMosaic.Lib.ValueIdx

noncomputable section

namespace Cert.EdgeScore

open Idealize.ShloMosaic Idealize.ShloMosaic.ValueIdx

/-- The single-precision word of −∞, as an extended real. Both programs start their maximum from this word. -/
abbrev negInf : EReal := Ideal.ofBits .f32 0xFF800000#32
/-- The single-precision word of zero, as an extended real. Both programs clip at this word. -/
abbrev zeroW : EReal := Ideal.ofBits .f32 0x00000000#32

/-- The rectifier: the larger of x and zero. -/
def relu (x : EReal) : EReal := max x zeroW

/-- A row times a matrix, at column j. -/
def lin {K N : ℕ} (x : Fin K → EReal) (W : Fin K → Fin N → EReal) (j : Fin N) : EReal := ∑ k : Fin K, x k * W k j

/-- Position k of the first half of 256 positions. -/
def lo (k : Fin 128) : Fin 256 := ⟨k.val, by omega⟩
/-- Position k of the second half of 256 positions. -/
def hi (k : Fin 128) : Fin 256 := ⟨128 + k.val, by omega⟩

/-- A sum over 256 positions is the sum over the first 128 plus the sum over the last 128. -/
theorem sum_split (f : Fin 256 → EReal) :
    ∑ k : Fin 256, f k = (∑ k : Fin 128, f (lo k)) + ∑ k : Fin 128, f (hi k) :=
  Fin.sum_univ_add (a := 128) (b := 128) f

/-- A dense rectified layer: x ↦ max (x·W + b, 0). -/
def hidden {K N : ℕ} (x : Fin K → EReal) (W : Fin K → Fin N → EReal) (b : Fin N → EReal) : Fin N → EReal :=
  fun j => relu (lin x W j + b j)

/-- The first layer on the joined row (s, d): s meets the first 128 rows of the weights (Wa), d the last 128 (Wb). -/
def hiddenPair {N : ℕ} (s d : Fin 128 → EReal) (Wa Wb : Fin 128 → Fin N → EReal) (b : Fin N → EReal) : Fin N → EReal :=
  fun j => relu ((lin s Wa j + lin d Wb j) + b j)

/-- The larger entry of a pair, the maximum started from −∞ and then compared with −∞ once more, as computed. -/
def pairMax (z : Fin 2 → EReal) : EReal := max negInf ((Finset.univ : Finset (Fin 2)).fold max negInf z)

/-- Entry i of the softmax of a pair, as computed: exp (zᵢ − M) over the sum of both exponentials. -/
def gate (z : Fin 2 → EReal) (i : Fin 2) : EReal :=
  Ideal.div (Ideal.exp (z i - pairMax z)) (∑ k : Fin 2, Ideal.exp (z k - pairMax z))

/-- The inner product of the two rows. -/
def inner (s d : Fin 128 → EReal) : EReal := ∑ k : Fin 128, s k * d k

/-- The perceptron's output on the joined row. -/
def mlp (s d : Fin 128 → EReal) (W1a W1b : Fin 128 → Fin 256 → EReal) (b1 : Fin 256 → EReal)
    (W2 : Fin 256 → Fin 128 → EReal) (b2 : Fin 128 → EReal) (W3 : Fin 128 → Fin 64 → EReal) (b3 : Fin 64 → EReal)
    (W4 : Fin 64 → Fin 1 → EReal) (b4 : Fin 1 → EReal) : EReal :=
  lin (hidden (hidden (hiddenPair s d W1a W1b b1) W2 b2) W3 b3) W4 0 + b4 0

/-- The two logits of the gate. -/
def logits (s d : Fin 128 → EReal) (Wg1a Wg1b : Fin 128 → Fin 64 → EReal) (bg1 : Fin 64 → EReal)
    (Wg2 : Fin 64 → Fin 2 → EReal) (bg2 : Fin 2 → EReal) : Fin 2 → EReal :=
  fun j => lin (hiddenPair s d Wg1a Wg1b bg1) Wg2 j + bg2 j

/-- THE SCORE of an edge with rows s and d. -/
def rowScore (s d : Fin 128 → EReal) (W1a W1b : Fin 128 → Fin 256 → EReal) (b1 : Fin 256 → EReal)
    (W2 : Fin 256 → Fin 128 → EReal) (b2 : Fin 128 → EReal) (W3 : Fin 128 → Fin 64 → EReal) (b3 : Fin 64 → EReal)
    (W4 : Fin 64 → Fin 1 → EReal) (b4 : Fin 1 → EReal)
    (Wg1a Wg1b : Fin 128 → Fin 64 → EReal) (bg1 : Fin 64 → EReal) (Wg2 : Fin 64 → Fin 2 → EReal) (bg2 : Fin 2 → EReal) : EReal :=
  gate (logits s d Wg1a Wg1b bg1 Wg2 bg2) 0 * inner s d
    + gate (logits s d Wg1a Wg1b bg1 Wg2 bg2) 1 * mlp s d W1a W1b b1 W2 b2 W3 b3 W4 b4

/-- THE SCORES of all 500000 edges from the argument arrays: edge e reads row `rs e` of the user table and row `rd e` of
    the item table; the first layers' 256-row weight matrices are split into their first and last 128 rows. -/
def scoreArr (hu ht : (⟨2, ![100000, 128]⟩ : Shape).Idx → EReal) (rs rd : Fin 500000 → Fin 100000)
    (W1 : (⟨2, ![256, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (W3 : (⟨2, ![128, 64]⟩ : Shape).Idx → EReal) (b3 : (⟨1, ![64]⟩ : Shape).Idx → EReal)
    (W4 : (⟨2, ![64, 1]⟩ : Shape).Idx → EReal) (b4 : (⟨1, ![1]⟩ : Shape).Idx → EReal)
    (Wg1 : (⟨2, ![256, 64]⟩ : Shape).Idx → EReal) (bg1 : (⟨1, ![64]⟩ : Shape).Idx → EReal)
    (Wg2 : (⟨2, ![64, 2]⟩ : Shape).Idx → EReal) (bg2 : (⟨1, ![2]⟩ : Shape).Idx → EReal) :
    (⟨1, ![500000]⟩ : Shape).Idx → EReal := fun i =>
  rowScore (fun k => hu (ix2 (rs (i 0)) k)) (fun k => ht (ix2 (rd (i 0)) k))
    (fun k j => W1 (ix2 (lo k) j)) (fun k j => W1 (ix2 (hi k) j)) (fun j => b1 (ix1 j))
    (fun k j => W2 (ix2 k j)) (fun j => b2 (ix1 j)) (fun k j => W3 (ix2 k j)) (fun j => b3 (ix1 j))
    (fun k j => W4 (ix2 k j)) (fun j => b4 (ix1 j))
    (fun k j => Wg1 (ix2 (lo k) j)) (fun k j => Wg1 (ix2 (hi k) j)) (fun j => bg1 (ix1 j))
    (fun k j => Wg2 (ix2 k j)) (fun j => bg2 (ix1 j))

end Cert.EdgeScore

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibAxisMax.lean ====
/-
  The maximum of a matrix along its second axis, read at an index. Independent of any program.

  A float max-reduction of an [a, b] matrix over axis 1 leaves an [a] vector whose entry p is the fold of max, started
  from the accumulator's value, over k : Fin b of the matrix at (p, k) — a row maximum. The host's reduce with a maximum
  body over the LAST axis of an array of any rank is read the same way by the library's single-axis law; this file gives
  the kernel's side at coordinates.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW MAXIMA: a max-reduction of an [a, b] matrix over axis 1, at row p, is the fold of max from the accumulator's value
    over k of the matrix at (p, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg ((Finset.univ : Finset (Fin b)).fold max (Ideal.ofBits φ acc)) (funext fun k => congrArg src (funext fun c => Fin.ext ?_))
  match c with
  | ⟨0, _⟩ => rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelRow.lean ====
/-
  The kernel's body, read one row at a time.

  The body works on a block of 4000 edges. Every operation in it is row-wise: entry r of the stored [4000, 1] block
  depends on row r of the two loaded [4000, 128] blocks (the edges' user rows and item rows) and on the weights, and on no
  other row. Reading the body's value at row r therefore gives the score of one edge (Cert.EdgeScore.rowScore) of
  those two rows: each matrix product at (r, j) is a sum over k of row r of the left operand against column j of the
  right one; each bias, a [1, n] row broadcast down the block, contributes its entry j; the lane sum and lane maximum
  over axis 1 are the sum and the fold of max over the row; the column slices of the two-wide softmax read its entries
  0 and 1. A change of float format is the identity on the extended reals.
-/
import proofs.«149136_j38173669327127_2_alg».proof.Proof.Gen.KernelIdeal.Skeleton
import proofs.«149136_j38173669327127_2_alg».proof.Proof.EdgeScore
import proofs.«149136_j38173669327127_2_alg».proof.Proof.LibPlainDot
import proofs.«149136_j38173669327127_2_alg».proof.Proof.LibAxisSums
import proofs.«149136_j38173669327127_2_alg».proof.Proof.LibAxisMax
import proofs.«149136_j38173669327127_2_alg».proof.Proof.LibColumnCast
import proofs.«149136_j38173669327127_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RowValue

open Cert.KernelIdeal Cert.KernelIdeal.Gen Cert.EdgeScore Idealize.ShloMosaic Idealize.ShloMosaic.ValueIdx

/-! ## One operation at a time -/

theorem exp_apply {s : Shape} {φ : FTy} (v : FVec Ideal s φ) (i : s.Idx) : exp v i = Ideal.exp (v i) := rfl

/-- [4000, 128] × [128, 256] at (p, q). -/
theorem mm_128_256 (l : FVec Ideal S4000x128 .bf16) (r : FVec Ideal S128x256 .bf16) (p : Fin 4000) (q : Fin 256) :
    matmul dot_S4000x128_S128x256_S4000x256_1_0_0_1_n_n none l r (constant (F := Ideal) S4000x256 .f32 0x00000000#32) (ix2 p q)
      = ∑ k : Fin 128, l (ix2 p k) * r (ix2 k q) :=
  Cert.Lib.matmul_zero_apply _ none l r p q

/-- [4000, 256] × [256, 128] at (p, q). -/
theorem mm_256_128 (l : FVec Ideal S4000x256 .bf16) (r : FVec Ideal S256x128 .bf16) (p : Fin 4000) (q : Fin 128) :
    matmul dot_S4000x256_S256x128_S4000x128_1_0_0_1_n_n none l r (constant (F := Ideal) S4000x128 .f32 0x00000000#32) (ix2 p q)
      = ∑ k : Fin 256, l (ix2 p k) * r (ix2 k q) :=
  Cert.Lib.matmul_zero_apply _ none l r p q

/-- [4000, 128] × [128, 64] at (p, q). -/
theorem mm_128_64 (l : FVec Ideal S4000x128 .bf16) (r : FVec Ideal S128x64 .bf16) (p : Fin 4000) (q : Fin 64) :
    matmul dot_S4000x128_S128x64_S4000x64_1_0_0_1_n_n none l r (constant (F := Ideal) S4000x64 .f32 0x00000000#32) (ix2 p q)
      = ∑ k : Fin 128, l (ix2 p k) * r (ix2 k q) :=
  Cert.Lib.matmul_zero_apply _ none l r p q

/-- [4000, 64] × [64, 1] at (p, q). -/
theorem mm_64_1 (l : FVec Ideal S4000x64 .bf16) (r : FVec Ideal S64x1 .bf16) (p : Fin 4000) (q : Fin 1) :
    matmul dot_S4000x64_S64x1_S4000x1_1_0_0_1_n_n none l r (constant (F := Ideal) S4000x1 .f32 0x00000000#32) (ix2 p q)
      = ∑ k : Fin 64, l (ix2 p k) * r (ix2 k q) :=
  Cert.Lib.matmul_zero_apply _ none l r p q

/-- [4000, 64] × [64, 2] at (p, q). -/
theorem mm_64_2 (l : FVec Ideal S4000x64 .bf16) (r : FVec Ideal S64x2 .bf16) (p : Fin 4000) (q : Fin 2) :
    matmul dot_S4000x64_S64x2_S4000x2_1_0_0_1_n_n none l r (constant (F := Ideal) S4000x2 .f32 0x00000000#32) (ix2 p q)
      = ∑ k : Fin 64, l (ix2 p k) * r (ix2 k q) :=
  Cert.Lib.matmul_zero_apply _ none l r p q

/-- Column 0 of a [4000, 2] array, as a [4000, 1] slice. -/
theorem slice_col0 (v : FVec Ideal S4000x2 .f32) (r : Fin 4000) :
    extractStridedSlice S4000x1 ![0, 0] v slices_S4000x2_o0_0_S4000x1 (ix2 r (0 : Fin 1)) = v (ix2 r (0 : Fin 2)) :=
  extractStridedSlice_apply _ v _ (ix2 r (0 : Fin 1)) (ix2 r (0 : Fin 2)) (fun ax => match ax with
    | ⟨0, _⟩ => (Nat.zero_add _).symm
    | ⟨1, _⟩ => rfl)

/-- Column 1 of a [4000, 2] array, as a [4000, 1] slice. -/
theorem slice_col1 (v : FVec Ideal S4000x2 .f32) (r : Fin 4000) :
    extractStridedSlice S4000x1 ![0, 1] v slices_S4000x2_o0_1_S4000x1 (ix2 r (0 : Fin 1)) = v (ix2 r (1 : Fin 2)) :=
  extractStridedSlice_apply _ v _ (ix2 r (0 : Fin 1)) (ix2 r (1 : Fin 2)) (fun ax => match ax with
    | ⟨0, _⟩ => (Nat.zero_add _).symm
    | ⟨1, _⟩ => rfl)

/-- The lane sum of a [4000, 2] array over its two columns, at row r. -/
theorem rowSum2 (v : FVec Ideal S4000x2 .f32) (r : Fin 4000) :
    FloatOps.reduceAdd (F := Ideal) [1] reduces_S4000x2_S4000 v (ix1 r) = ∑ k : Fin 2, v (ix2 r k) :=
  Cert.Lib.rowSum_apply v 0x00000000#32 reduces_S4000x2_S4000 (.inl rfl) rfl r

/-! ## The payloads at a row -/

/-- The inner product of the two loaded rows. -/
theorem pay4_apply (x0 x1 : Vec Ideal S4000x128 .bf16) (r : Fin 4000) (u : Fin 1) :
    k0_pay4 (F := Ideal) x0 x1 (ix2 r u) = inner (fun k => x0 (ix2 r k)) (fun k => x1 (ix2 r k)) := by
  unfold k0_pay4 k0_pay2 k0_pay3
  simp only [shapeCast_self]
  refine (Cert.Lib.shapeCast_a_a1_apply _ _ r u).trans ?_
  refine (Cert.Lib.rowSum_apply _ _ _ _ _ r).trans ?_
  rfl

/-- The third hidden layer's product, before its bias: three dense layers deep. -/
theorem pay5_apply (x0 x1 : Vec Ideal S4000x128 .bf16) (x2 x3 : Vec Ideal S128x256 .bf16) (x4 : Vec Ideal S1x256 .f32)
    (x5 : Vec Ideal S256x128 .bf16) (x6 : Vec Ideal S1x128 .f32) (x7 : Vec Ideal S128x64 .bf16) (r : Fin 4000) (j : Fin 64) :
    k0_pay5 (F := Ideal) x0 x1 x2 x3 x4 x5 x6 x7 (ix2 r j)
      = lin (hidden (hiddenPair (fun k => x0 (ix2 r k)) (fun k => x1 (ix2 r k)) (fun k q => x2 (ix2 k q)) (fun k q => x3 (ix2 k q))
          (fun q => x4 (ix2 (0 : Fin 1) q))) (fun k q => x5 (ix2 k q)) (fun q => x6 (ix2 (0 : Fin 1) q))) (fun k q => x7 (ix2 k q)) j := by
  unfold k0_pay5 k0_pay2 k0_pay3
  simp only [shapeCast_self, mm_128_64, mm_256_128, mm_128_256, truncf_apply, maximumf_apply, addf_apply, broadcast_apply,
    broadcastTo_1b_ab_apply]
  rfl

/-- The perceptron's output from the third layer's product. -/
theorem pay6_apply (v35 : FVec Ideal S4000x64 .f32) (x8 : Vec Ideal S1x64 .f32) (x9 : Vec Ideal S64x1 .bf16) (x10 : Vec Ideal S1x1 .f32)
    (r : Fin 4000) (u : Fin 1) :
    k0_pay6 (F := Ideal) v35 x8 x9 x10 (ix2 r u)
      = lin (fun k => relu (v35 (ix2 r k) + x8 (ix2 (0 : Fin 1) k))) (fun k q => x9 (ix2 k q)) u + x10 (ix2 (0 : Fin 1) u) := by
  unfold k0_pay6
  simp only [shapeCast_self, mm_64_1, truncf_apply, maximumf_apply, addf_apply, broadcast_apply, broadcastTo_1b_ab_apply]
  rfl

/-- The gate's two logits. -/
theorem pay7_apply (v1 v3 : FVec Ideal S4000x128 .bf16) (x11 x12 : Vec Ideal S128x64 .bf16) (x13 : Vec Ideal S1x64 .f32)
    (x14 : Vec Ideal S64x2 .bf16) (x15 : Vec Ideal S1x2 .f32) (r : Fin 4000) (j : Fin 2) :
    k0_pay7 (F := Ideal) v1 v3 x11 x12 x13 x14 x15 (ix2 r j)
      = logits (fun k => v1 (ix2 r k)) (fun k => v3 (ix2 r k)) (fun k q => x11 (ix2 k q)) (fun k q => x12 (ix2 k q))
          (fun q => x13 (ix2 (0 : Fin 1) q)) (fun k q => x14 (ix2 k q)) (fun q => x15 (ix2 (0 : Fin 1) q)) j := by
  unfold k0_pay7
  simp only [shapeCast_self, mm_128_64, mm_64_2, truncf_apply, maximumf_apply, addf_apply, broadcast_apply, broadcastTo_1b_ab_apply]
  rfl

/-- The larger logit, the maximum started from −∞. -/
theorem pay8_apply (v1 v3 : FVec Ideal S4000x128 .bf16) (x11 x12 : Vec Ideal S128x64 .bf16) (x13 : Vec Ideal S1x64 .f32)
    (x14 : Vec Ideal S64x2 .bf16) (x15 : Vec Ideal S1x2 .f32) (r : Fin 4000) :
    k0_pay8 (F := Ideal) v1 v3 x11 x12 x13 x14 x15 (ix1 r)
      = (Finset.univ : Finset (Fin 2)).fold max negInf (fun k => k0_pay7 (F := Ideal) v1 v3 x11 x12 x13 x14 x15 (ix2 r k)) := by
  unfold k0_pay8
  exact Cert.Lib.rowMax_apply _ _ _ _ _ r

/-- The softmax combination, from the inner product, the perceptron's output, the logits and their maximum. -/
theorem pay1_apply (v8 v49 : FVec Ideal S4000x1 .f32) (v70 : FVec Ideal S4000x2 .f32) (v71 : FVec Ideal S4000 .f32) (c : Ideal .f32)
    (r : Fin 4000) :
    k0_pay1 (F := Ideal) v8 v49 v70 v71 c (ix2 r (0 : Fin 1))
      = Ideal.div (Ideal.exp (v70 (ix2 r (0 : Fin 2)) - max c (v71 (ix1 r))))
            (∑ k : Fin 2, Ideal.exp (v70 (ix2 r k) - max c (v71 (ix1 r)))) * v8 (ix2 r (0 : Fin 1))
        + Ideal.div (Ideal.exp (v70 (ix2 r (1 : Fin 2)) - max c (v71 (ix1 r))))
            (∑ k : Fin 2, Ideal.exp (v70 (ix2 r k) - max c (v71 (ix1 r)))) * v49 (ix2 r (0 : Fin 1)) := by
  unfold k0_pay1
  simp only [addf_apply, mulf_apply, slice_col0, slice_col1, divf_apply, exp_apply, subf_apply, Cert.Lib.broadcastTo_a1_ab_apply,
    Cert.Lib.shapeCast_a_a1_apply, multiReduction, maximumf_apply, broadcast_apply]
  rw [rowSum2]
  simp only [exp_apply, subf_apply, Cert.Lib.broadcastTo_a1_ab_apply, Cert.Lib.shapeCast_a_a1_apply, maximumf_apply, broadcast_apply]

/-! ## The body at a row -/

/-- THE BODY'S VALUE AT ROW r is the score of the edge whose rows are row r of the two loaded blocks. -/
theorem body_apply (x0 x1 : Vec Ideal S4000x128 .bf16) (x2 x3 : Vec Ideal S128x256 .bf16) (x4 : Vec Ideal S1x256 .f32)
    (x5 : Vec Ideal S256x128 .bf16) (x6 : Vec Ideal S1x128 .f32) (x7 : Vec Ideal S128x64 .bf16) (x8 : Vec Ideal S1x64 .f32)
    (x9 : Vec Ideal S64x1 .bf16) (x10 : Vec Ideal S1x1 .f32) (x11 x12 : Vec Ideal S128x64 .bf16) (x13 : Vec Ideal S1x64 .f32)
    (x14 : Vec Ideal S64x2 .bf16) (x15 : Vec Ideal S1x2 .f32) (r : Fin 4000) :
    k0_pay1 (F := Ideal) (k0_pay4 x0 x1) (k0_pay6 (k0_pay5 x0 x1 x2 x3 x4 x5 x6 x7) x8 x9 x10)
        (k0_pay7 (k0_pay2 x0) (k0_pay3 x1) x11 x12 x13 x14 x15) (k0_pay8 (k0_pay2 x0) (k0_pay3 x1) x11 x12 x13 x14 x15)
        (Scalar.ofBits .f32 0xFF800000#32) (ix2 r (0 : Fin 1))
      = rowScore (fun k => x0 (ix2 r k)) (fun k => x1 (ix2 r k)) (fun k q => x2 (ix2 k q)) (fun k q => x3 (ix2 k q))
          (fun q => x4 (ix2 (0 : Fin 1) q)) (fun k q => x5 (ix2 k q)) (fun q => x6 (ix2 (0 : Fin 1) q)) (fun k q => x7 (ix2 k q))
          (fun q => x8 (ix2 (0 : Fin 1) q)) (fun k q => x9 (ix2 k q)) (fun q => x10 (ix2 (0 : Fin 1) q))
          (fun k q => x11 (ix2 k q)) (fun k q => x12 (ix2 k q)) (fun q => x13 (ix2 (0 : Fin 1) q))
          (fun k q => x14 (ix2 k q)) (fun q => x15 (ix2 (0 : Fin 1) q)) := by
  have e2 : k0_pay2 (F := Ideal) x0 = x0 := by unfold k0_pay2; exact shapeCast_self _ _
  have e3 : k0_pay3 (F := Ideal) x1 = x1 := by unfold k0_pay3; exact shapeCast_self _ _
  rw [pay1_apply, e2, e3]
  simp only [pay4_apply, pay6_apply, pay5_apply, pay7_apply, pay8_apply]
  rfl

end Cert.KernelIdeal.RowValue

end
-- ==== Proof.KernelBlocks.lean ====
/-
  From the kernel's blocks to its whole output array.

  The pallas call runs the body at 125 grid points. Point t loads rows 4000·t … 4000·t + 3999 of the two gathered
  [500000, 128] arrays, the whole of every weight array, and writes back rows 4000·t … 4000·t + 3999 of the [500000, 1]
  output. The body being row-wise, what point t writes at row y of its block is the score of the edge 4000·t + y: the
  block is the restriction of ONE whole-array function (`blockScores`: the score of every edge from the arrays the
  region is launched on). The 125 blocks tile the 500000 rows (row i is in block i / 4000), so after the run the output
  array is that function.
-/
import proofs.«149136_j38173669327127_2_alg».proof.Proof.Gen.KernelIdeal.Frame
import proofs.«149136_j38173669327127_2_alg».proof.Proof.KernelRow
import proofs.«149136_j38173669327127_2_alg».proof.Proof.EdgeScore
import Idealize.ShloMosaic.Lib.ValueIdx
import Idealize.ShloMosaic.Lib.Pipeline.Value

set_option maxRecDepth 16384

noncomputable section

namespace Cert.KernelIdeal.ArrValue

open Cert.KernelIdeal Cert.KernelIdeal.Gen Cert.KernelIdeal.RowValue Cert.EdgeScore
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The stored block is the body's value -/

theorem hz : (![0, 0] : Fin 2 → Nat) = fun _ => 0 := funext fun a => by fin_cases a <;> rfl

/-- The one store covers the output block: what the body leaves there is its last value. -/
theorem out_eq (x0 x1 : Vec Ideal S4000x128 .bf16) (x2 x3 : Vec Ideal S128x256 .bf16) (x4 : Vec Ideal S1x256 .f32)
    (x5 : Vec Ideal S256x128 .bf16) (x6 : Vec Ideal S1x128 .f32) (x7 : Vec Ideal S128x64 .bf16) (x8 : Vec Ideal S1x64 .f32)
    (x9 : Vec Ideal S64x1 .bf16) (x10 : Vec Ideal S1x1 .f32) (x11 x12 : Vec Ideal S128x64 .bf16) (x13 : Vec Ideal S1x64 .f32)
    (x14 : Vec Ideal S64x2 .bf16) (x15 : Vec Ideal S1x2 .f32) :
    out0_16 (F := Ideal) x0 x1 x2 x3 x4 x5 x6 x7 x8 x9 x10 x11 x12 x13 x14 x15
      = k0_pay1 (k0_pay4 x0 x1) (k0_pay6 (k0_pay5 x0 x1 x2 x3 x4 x5 x6 x7) x8 x9 x10)
          (k0_pay7 (k0_pay2 x0) (k0_pay3 x1) x11 x12 x13 x14 x15) (k0_pay8 (k0_pay2 x0) (k0_pay3 x1) x11 x12 x13 x14 x15)
          (Scalar.ofBits .f32 0xFF800000#32) := by
  unfold out0_16
  rw [View.canon_unit_zero hz]
  simp only [View.ld_unit_zero (S := S4000x128) hz, View.ld_unit_zero (S := S128x256) hz, View.ld_unit_zero (S := S1x256) hz, View.ld_unit_zero (S := S256x128) hz, View.ld_unit_zero (S := S1x128) hz, View.ld_unit_zero (S := S128x64) hz, View.ld_unit_zero (S := S1x64) hz, View.ld_unit_zero (S := S64x1) hz, View.ld_unit_zero (S := S1x1) hz, View.ld_unit_zero (S := S64x2) hz, View.ld_unit_zero (S := S1x2) hz]

/-- The stored block at row y₀: the score of the edge whose rows are row y₀ of the two loaded blocks. -/
theorem out_at (x0 x1 : Vec Ideal S4000x128 .bf16) (x2 x3 : Vec Ideal S128x256 .bf16) (x4 : Vec Ideal S1x256 .f32)
    (x5 : Vec Ideal S256x128 .bf16) (x6 : Vec Ideal S1x128 .f32) (x7 : Vec Ideal S128x64 .bf16) (x8 : Vec Ideal S1x64 .f32)
    (x9 : Vec Ideal S64x1 .bf16) (x10 : Vec Ideal S1x1 .f32) (x11 x12 : Vec Ideal S128x64 .bf16) (x13 : Vec Ideal S1x64 .f32)
    (x14 : Vec Ideal S64x2 .bf16) (x15 : Vec Ideal S1x2 .f32) (y : S4000x1.Idx) :
    out0_16 (F := Ideal) x0 x1 x2 x3 x4 x5 x6 x7 x8 x9 x10 x11 x12 x13 x14 x15 y
      = rowScore (fun k => x0 (ix2 (y 0) k)) (fun k => x1 (ix2 (y 0) k)) (fun k q => x2 (ix2 k q)) (fun k q => x3 (ix2 k q))
          (fun q => x4 (ix2 (0 : Fin 1) q)) (fun k q => x5 (ix2 k q)) (fun q => x6 (ix2 (0 : Fin 1) q)) (fun k q => x7 (ix2 k q))
          (fun q => x8 (ix2 (0 : Fin 1) q)) (fun k q => x9 (ix2 k q)) (fun q => x10 (ix2 (0 : Fin 1) q))
          (fun k q => x11 (ix2 k q)) (fun k q => x12 (ix2 k q)) (fun q => x13 (ix2 (0 : Fin 1) q))
          (fun k q => x14 (ix2 k q)) (fun q => x15 (ix2 (0 : Fin 1) q)) := by
  rw [out_eq]
  obtain ⟨r, u, rfl⟩ : ∃ (r : Fin 4000) (u : Fin 1), y = ix2 r u := ⟨y 0, y 1, eq_ix2 y⟩
  obtain rfl : u = 0 := Subsingleton.elim _ _
  exact body_apply x0 x1 x2 x3 x4 x5 x6 x7 x8 x9 x10 x11 x12 x13 x14 x15 r

/-! ## Where each window's block sits in its array -/

/-- The printed index maps over the 125 grid points: the two row windows move with the output window along the rows and
    sit at column block 0; the output's block index is at most 124. -/
theorem idx_facts : ∀ t : Fin cfg0.N,
    win0_0.index t (0 : Fin 2) = win0_16.index t (0 : Fin 2) ∧ win0_0.index t (1 : Fin 2) = 0
    ∧ win0_1.index t (0 : Fin 2) = win0_16.index t (0 : Fin 2) ∧ win0_1.index t (1 : Fin 2) = 0
    ∧ win0_16.index t (1 : Fin 2) = 0 ∧ win0_16.index t (0 : Fin 2) ≤ 124 :=
  (by decide +kernel : ∀ t : Fin grid0.N, _)

/-- Every block row 0 … 124 of the output is some point's. -/
theorem idx_onto : ∀ q : Fin 125, ∃ t : Fin cfg0.N, win0_16.index t = ![q.val, 0] :=
  (by decide +kernel : ∀ q : Fin 125, ∃ t : Fin grid0.N, win0_16.index t = ![q.val, 0])

/-! The weight windows sit at block (0, 0) at every point. -/
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)
theorem idx_w14 : ∀ t : Fin cfg0.N, win0_14.index t (0 : Fin 2) = 0 ∧ win0_14.index t (1 : Fin 2) = 0 :=
  (by decide +kernel : ∀ t : Fin grid0.N, _)
theorem idx_w15 : ∀ t : Fin cfg0.N, win0_15.index t (0 : Fin 2) = 0 ∧ win0_15.index t (1 : Fin 2) = 0 :=
  (by decide +kernel : ∀ t : Fin grid0.N, _)

/-- Row y₀ of window 0's block at point t is row (block t's row y₀) of its array. -/
theorem blk0_at (c : Dev nD) (t : Fin cfg0.N) (y : S4000x1.Idx) (k : Fin 128) :
    iblk m c 0 t (ix2 (y 0) k) = V m c main_v8 (ix2 (((cfg0.win 16).blk t).view.emb y 0) k) := by
  obtain ⟨e0, e1, e2, e3, -, -⟩ := idx_facts t
  show V m c main_v8 (((cfg0.win 0).blk t).view.emb (ix2 (y 0) k)) = _
  refine congrArg (V m c main_v8) (funext fun a => Fin.ext ?_)
  match a with
  | ⟨0, _⟩ => show win0_0.index t (0 : Fin 2) * 4000 + 1 * (y 0).val = win0_16.index t (0 : Fin 2) * 4000 + 1 * (y 0).val; omega
  | ⟨1, _⟩ => show win0_0.index t (1 : Fin 2) * 128 + 1 * k.val = k.val; omega

/-- Row y₀ of window 1's block at point t is row (block t's row y₀) of its array. -/
theorem blk1_at (c : Dev nD) (t : Fin cfg0.N) (y : S4000x1.Idx) (k : Fin 128) :
    iblk m c 1 t (ix2 (y 0) k) = V m c main_v15 (ix2 (((cfg0.win 16).blk t).view.emb y 0) k) := by
  obtain ⟨e0, e1, e2, e3, -, -⟩ := idx_facts t
  show V m c main_v15 (((cfg0.win 1).blk t).view.emb (ix2 (y 0) k)) = _
  refine congrArg (V m c main_v15) (funext fun a => Fin.ext ?_)
  match a with
  | ⟨0, _⟩ => show win0_1.index t (0 : Fin 2) * 4000 + 1 * (y 0).val = win0_16.index t (0 : Fin 2) * 4000 + 1 * (y 0).val; omega
  | ⟨1, _⟩ => show win0_1.index t (1 : Fin 2) * 128 + 1 * k.val = k.val; omega

/-- Window 2's block is its whole array at every point. -/
theorem blk2_at (c : Dev nD) (t : Fin cfg0.N) (k : Fin 128) (q : Fin 256) :
    iblk m c 2 t (ix2 k q) = V m c main_v17 (ix2 k q) := by
  obtain ⟨e0, e1⟩ := idx_w2 t
  show V m c main_v17 (((cfg0.win 2).blk t).view.emb (ix2 k q)) = _
  refine congrArg (V m c main_v17) (funext fun a => Fin.ext ?_)
  match a with
  | ⟨0, _⟩ => show win0_2.index t (0 : Fin 2) * 128 + 1 * k.val = k.val; omega
  | ⟨1, _⟩ => show win0_2.index t (1 : Fin 2) * 256 + 1 * q.val = q.val; omega

/-- Window 3's block is its whole array at every point. -/
theorem blk3_at (c : Dev nD) (t : Fin cfg0.N) (k : Fin 128) (q : Fin 256) :
    iblk m c 3 t (ix2 k q) = V m c main_v19 (ix2 k q) := by
  obtain ⟨e0, e1⟩ := idx_w3 t
  show V m c main_v19 (((cfg0.win 3).blk t).view.emb (ix2 k q)) = _
  refine congrArg (V m c main_v19) (funext fun a => Fin.ext ?_)
  match a with
  | ⟨0, _⟩ => show win0_3.index t (0 : Fin 2) * 128 + 1 * k.val = k.val; omega
  | ⟨1, _⟩ => show win0_3.index t (1 : Fin 2) * 256 + 1 * q.val = q.val; omega

/-- Window 4's block is its whole array at every point. -/
theorem blk4_at (c : Dev nD) (t : Fin cfg0.N) (k : Fin 1) (q : Fin 256) :
    iblk m c 4 t (ix2 k q) = V m c main_v28 (ix2 k q) := by
  obtain ⟨e0, e1⟩ := idx_w4 t
  show V m c main_v28 (((cfg0.win 4).blk t).view.emb (ix2 k q)) = _
  refine congrArg (V m c main_v28) (funext fun a => Fin.ext ?_)
  match a with
  | ⟨0, _⟩ => show win0_4.index t (0 : Fin 2) * 1 + 1 * k.val = k.val; omega
  | ⟨1, _⟩ => show win0_4.index t (1 : Fin 2) * 256 + 1 * q.val = q.val; omega

/-- Window 5's block is its whole array at every point. -/
theorem blk5_at (c : Dev nD) (t : Fin cfg0.N) (k : Fin 256) (q : Fin 128) :
    iblk m c 5 t (ix2 k q) = V m c main_v24 (ix2 k q) := by
  obtain ⟨e0, e1⟩ := idx_w5 t
  show V m c main_v24 (((cfg0.win 5).blk t).view.emb (ix2 k q)) = _
  refine congrArg (V m c main_v24) (funext fun a => Fin.ext ?_)
  match a with
  | ⟨0, _⟩ => show win0_5.index t (0 : Fin 2) * 256 + 1 * k.val = k.val; omega
  | ⟨1, _⟩ => show win0_5.index t (1 : Fin 2) * 128 + 1 * q.val = q.val; omega

/-- Window 6's block is its whole array at every point. -/
theorem blk6_at (c : Dev nD) (t : Fin cfg0.N) (k : Fin 1) (q : Fin 128) :
    iblk m c 6 t (ix2 k q) = V m c main_v29 (ix2 k q) := by
  obtain ⟨e0, e1⟩ := idx_w6 t
  show V m c main_v29 (((cfg0.win 6).blk t).view.emb (ix2 k q)) = _
  refine congrArg (V m c main_v29) (funext fun a => Fin.ext ?_)
  match a with
  | ⟨0, _⟩ => show win0_6.index t (0 : Fin 2) * 1 + 1 * k.val = k.val; omega
  | ⟨1, _⟩ => show win0_6.index t (1 : Fin 2) * 128 + 1 * q.val = q.val; omega

/-- Window 7's block is its whole array at every point. -/
theorem blk7_at (c : Dev nD) (t : Fin cfg0.N) (k : Fin 128) (q : Fin 64) :
    iblk m c 7 t (ix2 k q) = V m c main_v25 (ix2 k q) := by
  obtain ⟨e0, e1⟩ := idx_w7 t
  show V m c main_v25 (((cfg0.win 7).blk t).view.emb (ix2 k q)) = _
  refine congrArg (V m c main_v25) (funext fun a => Fin.ext ?_)
  match a with
  | ⟨0, _⟩ => show win0_7.index t (0 : Fin 2) * 128 + 1 * k.val = k.val; omega
  | ⟨1, _⟩ => show win0_7.index t (1 : Fin 2) * 64 + 1 * q.val = q.val; omega

/-- Window 8's block is its whole array at every point. -/
theorem blk8_at (c : Dev nD) (t : Fin cfg0.N) (k : Fin 1) (q : Fin 64) :
    iblk m c 8 t (ix2 k q) = V m c main_v30 (ix2 k q) := by
  obtain ⟨e0, e1⟩ := idx_w8 t
  show V m c main_v30 (((cfg0.win 8).blk t).view.emb (ix2 k q)) = _
  refine congrArg (V m c main_v30) (funext fun a => Fin.ext ?_)
  match a with
  | ⟨0, _⟩ => show win0_8.index t (0 : Fin 2) * 1 + 1 * k.val = k.val; omega
  | ⟨1, _⟩ => show win0_8.index t (1 : Fin 2) * 64 + 1 * q.val = q.val; omega

/-- Window 9's block is its whole array at every point. -/
theorem blk9_at (c : Dev nD) (t : Fin cfg0.N) (k : Fin 64) (q : Fin 1) :
    iblk m c 9 t (ix2 k q) = V m c main_v26 (ix2 k q) := by
  obtain ⟨e0, e1⟩ := idx_w9 t
  show V m c main_v26 (((cfg0.win 9).blk t).view.emb (ix2 k q)) = _
  refine congrArg (V m c main_v26) (funext fun a => Fin.ext ?_)
  match a with
  | ⟨0, _⟩ => show win0_9.index t (0 : Fin 2) * 64 + 1 * k.val = k.val; omega
  | ⟨1, _⟩ => show win0_9.index t (1 : Fin 2) * 1 + 1 * q.val = q.val; omega

/-- Window 10's block is its whole array at every point. -/
theorem blk10_at (c : Dev nD) (t : Fin cfg0.N) (k : Fin 1) (q : Fin 1) :
    iblk m c 10 t (ix2 k q) = V m c main_v31 (ix2 k q) := by
  obtain ⟨e0, e1⟩ := idx_w10 t
  show V m c main_v31 (((cfg0.win 10).blk t).view.emb (ix2 k q)) = _
  refine congrArg (V m c main_v31) (funext fun a => Fin.ext ?_)
  match a with
  | ⟨0, _⟩ => show win0_10.index t (0 : Fin 2) * 1 + 1 * k.val = k.val; omega
  | ⟨1, _⟩ => show win0_10.index t (1 : Fin 2) * 1 + 1 * q.val = q.val; omega

/-- Window 11's block is its whole array at every point. -/
theorem blk11_at (c : Dev nD) (t : Fin cfg0.N) (k : Fin 128) (q : Fin 64) :
    iblk m c 11 t (ix2 k q) = V m c main_v21 (ix2 k q) := by
  obtain ⟨e0, e1⟩ := idx_w11 t
  show V m c main_v21 (((cfg0.win 11).blk t).view.emb (ix2 k q)) = _
  refine congrArg (V m c main_v21) (funext fun a => Fin.ext ?_)
  match a with
  | ⟨0, _⟩ => show win0_11.index t (0 : Fin 2) * 128 + 1 * k.val = k.val; omega
  | ⟨1, _⟩ => show win0_11.index t (1 : Fin 2) * 64 + 1 * q.val = q.val; omega

/-- Window 12's block is its whole array at every point. -/
theorem blk12_at (c : Dev nD) (t : Fin cfg0.N) (k : Fin 128) (q : Fin 64) :
    iblk m c 12 t (ix2 k q) = V m c main_v23 (ix2 k q) := by
  obtain ⟨e0, e1⟩ := idx_w12 t
  show V m c main_v23 (((cfg0.win 12).blk t).view.emb (ix2 k q)) = _
  refine congrArg (V m c main_v23) (funext fun a => Fin.ext ?_)
  match a with
  | ⟨0, _⟩ => show win0_12.index t (0 : Fin 2) * 128 + 1 * k.val = k.val; omega
  | ⟨1, _⟩ => show win0_12.index t (1 : Fin 2) * 64 + 1 * q.val = q.val; omega

/-- Window 13's block is its whole array at every point. -/
theorem blk13_at (c : Dev nD) (t : Fin cfg0.N) (k : Fin 1) (q : Fin 64) :
    iblk m c 13 t (ix2 k q) = V m c main_v32 (ix2 k q) := by
  obtain ⟨e0, e1⟩ := idx_w13 t
  show V m c main_v32 (((cfg0.win 13).blk t).view.emb (ix2 k q)) = _
  refine congrArg (V m c main_v32) (funext fun a => Fin.ext ?_)
  match a with
  | ⟨0, _⟩ => show win0_13.index t (0 : Fin 2) * 1 + 1 * k.val = k.val; omega
  | ⟨1, _⟩ => show win0_13.index t (1 : Fin 2) * 64 + 1 * q.val = q.val; omega

/-- Window 14's block is its whole array at every point. -/
theorem blk14_at (c : Dev nD) (t : Fin cfg0.N) (k : Fin 64) (q : Fin 2) :
    iblk m c 14 t (ix2 k q) = V m c main_v27 (ix2 k q) := by
  obtain ⟨e0, e1⟩ := idx_w14 t
  show V m c main_v27 (((cfg0.win 14).blk t).view.emb (ix2 k q)) = _
  refine congrArg (V m c main_v27) (funext fun a => Fin.ext ?_)
  match a with
  | ⟨0, _⟩ => show win0_14.index t (0 : Fin 2) * 64 + 1 * k.val = k.val; omega
  | ⟨1, _⟩ => show win0_14.index t (1 : Fin 2) * 2 + 1 * q.val = q.val; omega

/-- Window 15's block is its whole array at every point. -/
theorem blk15_at (c : Dev nD) (t : Fin cfg0.N) (k : Fin 1) (q : Fin 2) :
    iblk m c 15 t (ix2 k q) = V m c main_v33 (ix2 k q) := by
  obtain ⟨e0, e1⟩ := idx_w15 t
  show V m c main_v33 (((cfg0.win 15).blk t).view.emb (ix2 k q)) = _
  refine congrArg (V m c main_v33) (funext fun a => Fin.ext ?_)
  match a with
  | ⟨0, _⟩ => show win0_15.index t (0 : Fin 2) * 1 + 1 * k.val = k.val; omega
  | ⟨1, _⟩ => show win0_15.index t (1 : Fin 2) * 2 + 1 * q.val = q.val; omega

/-! ## The whole-array function -/

/-- The score of every edge, from the arrays the region is launched on: edge i reads row i of the two gathered arrays. -/
def blockScores (a0 a1 : S500000x128.Idx → EReal) (a2 a3 : S128x256.Idx → EReal) (a4 : S1x256.Idx → EReal)
    (a5 : S256x128.Idx → EReal) (a6 : S1x128.Idx → EReal) (a7 : S128x64.Idx → EReal) (a8 : S1x64.Idx → EReal)
    (a9 : S64x1.Idx → EReal) (a10 : S1x1.Idx → EReal) (a11 a12 : S128x64.Idx → EReal) (a13 : S1x64.Idx → EReal)
    (a14 : S64x2.Idx → EReal) (a15 : S1x2.Idx → EReal) : S500000x1.Idx → EReal := fun i =>
  rowScore (fun k => a0 (ix2 (i 0) k)) (fun k => a1 (ix2 (i 0) k)) (fun k q => a2 (ix2 k q)) (fun k q => a3 (ix2 k q))
    (fun q => a4 (ix2 (0 : Fin 1) q)) (fun k q => a5 (ix2 k q)) (fun q => a6 (ix2 (0 : Fin 1) q)) (fun k q => a7 (ix2 k q))
    (fun q => a8 (ix2 (0 : Fin 1) q)) (fun k q => a9 (ix2 k q)) (fun q => a10 (ix2 (0 : Fin 1) q))
    (fun k q => a11 (ix2 k q)) (fun k q => a12 (ix2 k q)) (fun q => a13 (ix2 (0 : Fin 1) q))
    (fun k q => a14 (ix2 k q)) (fun q => a15 (ix2 (0 : Fin 1) q))

/-- The output array the region leaves, as a function of the arrays it is launched on. -/
def regionOut (c : Dev nD) : S500000x1.Idx → EReal :=
  blockScores (V m c main_v8) (V m c main_v15) (V m c main_v17) (V m c main_v19) (V m c main_v28) (V m c main_v24) (V m c main_v29)
    (V m c main_v25) (V m c main_v30) (V m c main_v26) (V m c main_v31) (V m c main_v21) (V m c main_v23) (V m c main_v32)
    (V m c main_v27) (V m c main_v33)

/-- WHAT POINT t WRITES BACK is block t of the whole-array function. -/
theorem flushed_eq (c : Dev nD) (t : Fin cfg0.N) :
    (dats m 0 c).flushed 16 t = ((cfg0.win 16).blk t).view.read (Elt Ideal) (regionOut m c) := by
  show (cfg0.win 16).cut (grid0.coords t) ((dats m 0 c).after 16 t) = _
  rw [after0_16]
  funext y
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = regionOut m c (((cfg0.win 16).blk t).view.emb y)
  rw [out_at]
  unfold regionOut blockScores
  simp only [blk0_at m c t y, blk1_at m c t y, blk2_at m c t, blk3_at m c t, blk4_at m c t, blk5_at m c t, blk6_at m c t, blk7_at m c t, blk8_at m c t, blk9_at m c t, blk10_at m c t, blk11_at m c t, blk12_at m c t, blk13_at m c t, blk14_at m c t, blk15_at m c t]

/-! ## The blocks tile the array -/

/-- An index of the output array is in point t's block iff each coordinate is in the block's range on its axis. -/
theorem mem_blk (t : Fin cfg0.N) (i : S500000x1.Idx) :
    i ∈ ((cfg0.win 16).blk t).view.set ↔ ∀ a : Fin 2, win0_16.index t a * S4000x1.size a ≤ (i a).val ∧ (i a).val < win0_16.index t a * S4000x1.size a + S4000x1.size a := by
  show i ∈ ((View.whole main_v34).slice (win0_16.rect t)).set ↔ _
  rw [View.set_slice_whole, Rect.mem_set_unit]
  exact Iff.rfl

/-- Row i of the output is in the block of the point whose block row is i / 4000. -/
theorem cover (i : S500000x1.Idx) : ∃ t : Fin cfg0.N, (cfg0.win 16).flush t = true ∧ i ∈ ((cfg0.win 16).blk t).view.set := by
  have hi0 : (i 0).val < 500000 := (i 0).isLt
  have hi1 : (i 1).val < 1 := (i 1).isLt
  obtain ⟨t, ht⟩ := idx_onto ⟨(i 0).val / 4000, by omega⟩
  have q0 : win0_16.index t (0 : Fin 2) = (i 0).val / 4000 := congrFun ht 0
  have q1 : win0_16.index t (1 : Fin 2) = 0 := congrFun ht 1
  refine ⟨t, flush0_16 t, ?_⟩
  rw [mem_blk]
  intro a
  match a with
  | ⟨0, _⟩ => show win0_16.index t (0 : Fin 2) * 4000 ≤ (i 0).val ∧ (i 0).val < win0_16.index t (0 : Fin 2) * 4000 + 4000; omega
  | ⟨1, _⟩ => show win0_16.index t (1 : Fin 2) * 1 ≤ (i 1).val ∧ (i 1).val < win0_16.index t (1 : Fin 2) * 1 + 1; omega

/-- THE OUTPUT ARRAY after the run is the whole-array function. -/
theorem final (c : Dev nD) : (dats m 0 c).arrAt 16 cfg0.N = regionOut m c :=
  (dats m 0 c).arrAt_eq_of_cover 16 (regionOut m c) (fun t _ => flushed_eq m c t) cover

end Cert.KernelIdeal.ArrValue

end
-- ==== Proof.LibEdgeGatherScatter.lean ====
/-
  Gathers and accumulating scatters keyed by ONE integer per edge, in two layouts. Independent of any program.

  An edge list of length `E` carries, per edge `e`, one integer `idx[e, 0]` (the start indices have shape `[E, 1]`).

  1. GATHER.  Rows of a matrix `x : [N, D]` taken at the edges' integers (`x[idx]`: offset axis 1, collapsed axis 0,
     slices `[1, D]`) give `[E, D]`, whose element `(e, c)` is `x` at row `clampRow idx e` — the integer read signed
     and clamped into `[0, N − 1]`, as the gather clamps every start index — and column `c`.  The same integers taken
     along the MIDDLE axis of `x : [B, N, D]` (`x[:, idx, :]`: offset axes 0 and 2, collapsed axis 1, slices
     `[B, 1, D]`) give `[B, E, D]`, whose element `(b, e, o)` is `x` at `(b, clampRow idx e, o)`.

  2. ACCUMULATING SCATTER over the extended reals.  Updates `[E, D]` added into `x : [N, D]` at the rows the edges'
     integers name (window axis 1, inserted axis 0) leave at `(n, c)` the value `x (n, c)` plus the sum, over the edges
     whose integer, read signed, IS `n`, of the update at `(e, c)`; an edge whose integer is outside `[0, N)` lands
     nowhere.  Updates `[B, E, D]` added into `x : [B, N, D]` along the middle axis (window axes 0 and 2, inserted
     axis 1) leave at `(b, n, o)` the value `x (b, n, o)` plus the sum over the same edges of the update at `(b, e, o)`.
     In both layouts the sum ranges over the SAME set of edges, which is what lets a scatter over a matrix whose rows
     pack `B` blocks of width `O` be compared with the scatter over the unpacked `[B, N, O]` array.
-/
import Idealize.ShloMosaic.Lib.ValueIdx
import Idealize.ShloMosaic.PureOps.Ideal

noncomputable section

namespace Cert.Lib

open Idealize.ShloMosaic Idealize.ShloMosaic.ValueIdx

/-! ## The row an edge's integer selects -/

/-- The row of an `N`-row operand that edge `e` reads: its integer `idx[e, 0]`, signed, clamped into `[0, N − 1]`. -/
def clampRow {E w : Nat} (N : Nat) (hN : 0 < N) (idx : IVec ⟨2, ![E, 1]⟩ w) (e : Fin E) : Fin N :=
  ⟨min (idx (ix2 e (0 : Fin 1))).toInt.toNat (N - 1), by omega⟩

/-! ## Gathers -/

section Gather
variable {α : Type}

/-- The dimension numbers of `x[idx]` for an operand `[N, D]`, start indices `[E, 1]` and result `[E, D]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ROWS OF A MATRIX at `(e, c)`: the operand at row `clampRow idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c) = x (ix2 (clampRow N hN idx e) c) := by
  unfold Host.gather
  congr 1
  funext a
  refine Fin.ext ?_
  match a with
  | ⟨0, _⟩ =>
    show (rowGatherDims N D E wf).start (ix2 e c) idx 0 + (rowGatherDims N D E wf).batchCoord (ix2 e c) 0
        + (rowGatherDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
        + (rowGatherDims N D E wf).offCoord (ix2 e c) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowGatherDims N D E wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add, Nat.add_zero]
    rfl

/-- The dimension numbers of `x[:, idx, :]` for an operand `[B, N, D]`, start indices `[E, 1]` and result
    `[B, E, D]`. -/
abbrev midGatherDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- THE MIDDLE AXIS OF A RANK-3 ARRAY at `(b, e, o)`: the operand at `(b, clampRow idx e, o)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (b : Fin B) (e : Fin E) (o : Fin D) :
    Host.gather (midGatherDims B N D E wf) x idx (ix3 b e o) = x (ix3 b (clampRow N hN idx e) o) := by
  unfold Host.gather
  congr 1
  funext a
  refine Fin.ext ?_
  match a with
  | ⟨0, _⟩ =>
    show (midGatherDims B N D E wf).start (ix3 b e o) idx 0 + (midGatherDims B N D E wf).batchCoord (ix3 b e o) 0
        + (midGatherDims B N D E wf).offCoord (ix3 b e o) 0 = _
    rw [GatherDims.batchCoord_eq_zero _ _ _ List.not_mem_nil]
    unfold GatherDims.start
    rw [dif_neg (show ¬ (0 : Fin 3) ∈ ([1] : List (Fin 3)) from by decide)]
    have hk : (0 : Fin 3) ∈ (midGatherDims B N D E wf).sKept :=
      (GatherDims.mem_sKept _ _).mpr ⟨(show ¬ (0 : Fin 3) ∈ ([1] : List (Fin 3)) from by decide), List.not_mem_nil⟩
    unfold GatherDims.offCoord
    rw [dif_pos hk]
    simp only [Nat.zero_add, Nat.add_zero]
    rfl
  | ⟨1, _⟩ =>
    show (midGatherDims B N D E wf).start (ix3 b e o) idx 1 + (midGatherDims B N D E wf).batchCoord (ix3 b e o) 1
        + (midGatherDims B N D E wf).offCoord (ix3 b e o) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N D E wf).startIndexMap from List.mem_singleton.mpr rfl)]
    have hsi : (midGatherDims B N D E wf).siIdx (ix3 b e o) ⟨List.idxOf (1 : Fin 3) (midGatherDims B N D E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGatherDims B N D E wf).start (ix3 b e o) idx 2 + (midGatherDims B N D E wf).batchCoord (ix3 b e o) 2
        + (midGatherDims B N D E wf).offCoord (ix3 b e o) 2 = _
    rw [GatherDims.batchCoord_eq_zero _ _ _ List.not_mem_nil]
    unfold GatherDims.start
    rw [dif_neg (show ¬ (2 : Fin 3) ∈ ([1] : List (Fin 3)) from by decide)]
    have hk : (2 : Fin 3) ∈ (midGatherDims B N D E wf).sKept :=
      (GatherDims.mem_sKept _ _).mpr ⟨(show ¬ (2 : Fin 3) ∈ ([1] : List (Fin 3)) from by decide), List.not_mem_nil⟩
    unfold GatherDims.offCoord
    rw [dif_pos hk]
    simp only [Nat.zero_add, Nat.add_zero]
    rfl

end Gather

/-! ## Accumulating scatters over the extended reals -/

section Scatter

/-- An operand axis receives a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-! ### Rows of a matrix -/

/-- The dimension numbers of `x.at[idx].add(upd)` for an operand `[N, D]`, scatter indices `[E, 1]` and updates
    `[E, D]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at edge `e`'s integer, read signed, … -/
theorem rowScatter_start0 (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e c) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at zero. -/
theorem rowScatter_start1 (j : (⟨2, ![E, D]⟩ : Shape).Idx) : (rowScatterDims N D E wf).start j idx 1 = 0 := by
  unfold ScatterDims.start
  rw [dif_neg (show ¬ (1 : Fin 2) ∈ ([0] : List (Fin 2)) from by decide)]

/-- The window coordinate is zero on the row axis … -/
theorem rowScatter_window0 (j : (⟨2, ![E, D]⟩ : Shape).Idx) : (rowScatterDims N D E wf).window j 0 = 0 := by
  unfold ScatterDims.window
  rw [dif_neg (fun h => ((mem_sKept_iff _ _).mp h) (List.mem_singleton.mpr rfl))]

/-- … and the update's column on the column axis. -/
theorem rowScatter_window1 (e : Fin E) (c : Fin D) : (rowScatterDims N D E wf).window (ix2 e c) 1 = c.val := by
  have hk : (1 : Fin 2) ∈ (rowScatterDims N D E wf).sKept :=
    (mem_sKept_iff _ _).mpr (show ¬ (1 : Fin 2) ∈ ([0] : List (Fin 2)) from by decide)
  unfold ScatterDims.window
  rw [dif_pos hk]
  rfl

/-- WHERE UPDATE `(e, c)` LANDS: at `(n, c')` exactly when edge `e`'s integer, read signed, is `n` and the columns agree. -/
theorem rowScatter_resultIdx_iff (e : Fin E) (c : Fin D) (n : Fin N) (c' : Fin D) :
    (rowScatterDims N D E wf).resultIdx? (ix2 e c) idx = some (ix2 n c')
      ↔ (idx (ix2 e (0 : Fin 1))).toInt = (n.val : Int) ∧ c = c' := by
  have h0 : (rowScatterDims N D E wf).start (ix2 e c) idx 0 + ((rowScatterDims N D E wf).window (ix2 e c) 0 : Int)
      = (idx (ix2 e (0 : Fin 1))).toInt := by
    rw [rowScatter_start0, rowScatter_window0]; simp
  have h1 : (rowScatterDims N D E wf).start (ix2 e c) idx 1 + ((rowScatterDims N D E wf).window (ix2 e c) 1 : Int)
      = (c.val : Int) := by
    rw [rowScatter_start1, rowScatter_window1]; simp
  constructor
  · intro hs
    unfold ScatterDims.resultIdx? at hs
    split at hs
    · rename_i h
      have hf := Option.some.inj hs
      have e0 : ((rowScatterDims N D E wf).start (ix2 e c) idx 0 + ((rowScatterDims N D E wf).window (ix2 e c) 0 : Int)).toNat
          = n.val := congrArg Fin.val (congrFun hf 0)
      have e1 : ((rowScatterDims N D E wf).start (ix2 e c) idx 1 + ((rowScatterDims N D E wf).window (ix2 e c) 1 : Int)).toNat
          = c'.val := congrArg Fin.val (congrFun hf 1)
      have b0 : 0 ≤ (rowScatterDims N D E wf).start (ix2 e c) idx 0 + ((rowScatterDims N D E wf).window (ix2 e c) 0 : Int) :=
        (h 0).1
      rw [h0] at e0 b0
      rw [h1] at e1
      exact ⟨by omega, Fin.ext (by omega)⟩
    · exact absurd hs (by simp)
  · rintro ⟨hr, rfl⟩
    have hn : n.val < N := n.isLt
    have hc : c.val < D := c.isLt
    have h : ∀ a, 0 ≤ (rowScatterDims N D E wf).start (ix2 e c) idx a + ((rowScatterDims N D E wf).window (ix2 e c) a : Int)
        ∧ (rowScatterDims N D E wf).start (ix2 e c) idx a + ((rowScatterDims N D E wf).window (ix2 e c) a : Int)
          < ((⟨2, ![N, D]⟩ : Shape).size a : Int) := by
      intro a
      match a with
      | ⟨0, _⟩ =>
        show 0 ≤ (rowScatterDims N D E wf).start (ix2 e c) idx 0 + ((rowScatterDims N D E wf).window (ix2 e c) 0 : Int)
          ∧ (rowScatterDims N D E wf).start (ix2 e c) idx 0 + ((rowScatterDims N D E wf).window (ix2 e c) 0 : Int) < (N : Int)
        rw [h0, hr]; omega
      | ⟨1, _⟩ =>
        show 0 ≤ (rowScatterDims N D E wf).start (ix2 e c) idx 1 + ((rowScatterDims N D E wf).window (ix2 e c) 1 : Int)
          ∧ (rowScatterDims N D E wf).start (ix2 e c) idx 1 + ((rowScatterDims N D E wf).window (ix2 e c) 1 : Int) < (D : Int)
        rw [h1]; omega
    unfold ScatterDims.resultIdx?
    rw [dif_pos h]
    refine congrArg some (funext fun a => Fin.ext ?_)
    match a with
    | ⟨0, _⟩ =>
      show ((rowScatterDims N D E wf).start (ix2 e c) idx 0 + ((rowScatterDims N D E wf).window (ix2 e c) 0 : Int)).toNat = n.val
      rw [h0, hr]; omega
    | ⟨1, _⟩ =>
      show ((rowScatterDims N D E wf).start (ix2 e c) idx 1 + ((rowScatterDims N D E wf).window (ix2 e c) 1 : Int)).toNat = c.val
      rw [h1]; omega

/-- ROWS ACCUMULATED INTO A MATRIX at `(n, c)`: the operand there plus the updates `(e, c)` of the edges whose integer
    is `n`. -/
theorem scatterAdd_rows_apply (x : (⟨2, ![N, D]⟩ : Shape).Idx → EReal) (upd : (⟨2, ![E, D]⟩ : Shape).Idx → EReal)
    (n : Fin N) (c : Fin D) :
    Ideal.hostScatterAdd (rowScatterDims N D E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  have key : ∀ j : (⟨2, ![E, D]⟩ : Shape).Idx, (rowScatterDims N D E wf).resultIdx? j idx = some (ix2 n c) →
      (idx (ix2 (j 0 : Fin E) (0 : Fin 1))).toInt = (n.val : Int) ∧ ix2 (j 0 : Fin E) c = j := by
    intro j hj
    obtain ⟨e, c', rfl⟩ : ∃ (e : Fin E) (c' : Fin D), j = ix2 e c' := ⟨j 0, j 1, eq_ix2 j⟩
    obtain ⟨hr, rfl⟩ := (rowScatter_resultIdx_iff wf idx e c' n c).mp hj
    exact ⟨hr, rfl⟩
  refine Finset.sum_nbij' (fun j => (j 0 : Fin E)) (fun e => ix2 e c) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx_iff wf idx e c n c).mpr ⟨(Finset.mem_filter.mp he).2, rfl⟩⟩
  · intro j hj
    exact (key j (Finset.mem_filter.mp hj).2).2
  · intro e _
    rfl
  · intro j hj
    exact congrArg upd (key j (Finset.mem_filter.mp hj).2).2.symm

end Rows

/-! ### The middle axis of a rank-3 array -/

/-- The dimension numbers of `x.at[:, idx, :].add(upd)` for an operand `[B, N, D]`, scatter indices `[E, 1]` and
    updates `[B, E, D]`. -/
abbrev midScatterDims (B N D E : Nat)
    (wf : ScatterDims.WF ⟨3, ![B, N, D]⟩ ⟨2, ![E, 1]⟩ ⟨3, ![B, E, D]⟩ [0, 2] [1] [1] 1) :
    ScatterDims ⟨3, ![B, N, D]⟩ ⟨2, ![E, 1]⟩ ⟨3, ![B, E, D]⟩ where
  updateWindowDims := [0, 2]
  insertedWindowDims := [1]
  scatterDimsToOperandDims := [1]
  indexVectorDim := 1
  wf := wf

section Mid
variable {B N D E w : Nat} (wf : ScatterDims.WF ⟨3, ![B, N, D]⟩ ⟨2, ![E, 1]⟩ ⟨3, ![B, E, D]⟩ [0, 2] [1] [1] 1)
  (idx : IVec ⟨2, ![E, 1]⟩ w)

/-- On the middle axis the window of update `(b, e, o)` starts at edge `e`'s integer, read signed, … -/
theorem midScatter_start1 (b : Fin B) (e : Fin E) (o : Fin D) :
    (midScatterDims B N D E wf).start (ix3 b e o) idx 1 = (idx (ix2 e (0 : Fin 1))).toInt := by
  unfold ScatterDims.start
  rw [dif_pos (show (1 : Fin 3) ∈ (midScatterDims B N D E wf).scatterDimsToOperandDims from List.mem_singleton.mpr rfl)]
  have hsi : (midScatterDims B N D E wf).siIdx (ix3 b e o) ⟨List.idxOf (1 : Fin 3) (midScatterDims B N D E wf).scatterDimsToOperandDims,
      List.idxOf_lt_length_iff.2 (List.mem_singleton.mpr rfl)⟩ = ix2 e (0 : Fin 1) := by
    funext b'; refine Fin.ext ?_
    match b' with
    | ⟨0, _⟩ => rfl
    | ⟨1, _⟩ => rfl
  rw [hsi]

/-- … and on the outer axes at zero. -/
theorem midScatter_start0 (j : (⟨3, ![B, E, D]⟩ : Shape).Idx) : (midScatterDims B N D E wf).start j idx 0 = 0 := by
  unfold ScatterDims.start
  rw [dif_neg (show ¬ (0 : Fin 3) ∈ ([1] : List (Fin 3)) from by decide)]
theorem midScatter_start2 (j : (⟨3, ![B, E, D]⟩ : Shape).Idx) : (midScatterDims B N D E wf).start j idx 2 = 0 := by
  unfold ScatterDims.start
  rw [dif_neg (show ¬ (2 : Fin 3) ∈ ([1] : List (Fin 3)) from by decide)]

/-- The window coordinates are the update's outer coordinates, and zero on the middle axis. -/
theorem midScatter_window0 (b : Fin B) (e : Fin E) (o : Fin D) : (midScatterDims B N D E wf).window (ix3 b e o) 0 = b.val := by
  have hk : (0 : Fin 3) ∈ (midScatterDims B N D E wf).sKept :=
    (mem_sKept_iff _ _).mpr (show ¬ (0 : Fin 3) ∈ ([1] : List (Fin 3)) from by decide)
  unfold ScatterDims.window
  rw [dif_pos hk]
  rfl
theorem midScatter_window1 (j : (⟨3, ![B, E, D]⟩ : Shape).Idx) : (midScatterDims B N D E wf).window j 1 = 0 := by
  unfold ScatterDims.window
  rw [dif_neg (fun h => ((mem_sKept_iff _ _).mp h) (List.mem_singleton.mpr rfl))]
theorem midScatter_window2 (b : Fin B) (e : Fin E) (o : Fin D) : (midScatterDims B N D E wf).window (ix3 b e o) 2 = o.val := by
  have hk : (2 : Fin 3) ∈ (midScatterDims B N D E wf).sKept :=
    (mem_sKept_iff _ _).mpr (show ¬ (2 : Fin 3) ∈ ([1] : List (Fin 3)) from by decide)
  unfold ScatterDims.window
  rw [dif_pos hk]
  rfl

/-- WHERE UPDATE `(b, e, o)` LANDS: at `(b', n, o')` exactly when edge `e`'s integer, read signed, is `n` and the outer
    coordinates agree. -/
theorem midScatter_resultIdx_iff (b : Fin B) (e : Fin E) (o : Fin D) (b' : Fin B) (n : Fin N) (o' : Fin D) :
    (midScatterDims B N D E wf).resultIdx? (ix3 b e o) idx = some (ix3 b' n o')
      ↔ (idx (ix2 e (0 : Fin 1))).toInt = (n.val : Int) ∧ b = b' ∧ o = o' := by
  have h0 : (midScatterDims B N D E wf).start (ix3 b e o) idx 0 + ((midScatterDims B N D E wf).window (ix3 b e o) 0 : Int)
      = (b.val : Int) := by
    rw [midScatter_start0, midScatter_window0]; simp
  have h1 : (midScatterDims B N D E wf).start (ix3 b e o) idx 1 + ((midScatterDims B N D E wf).window (ix3 b e o) 1 : Int)
      = (idx (ix2 e (0 : Fin 1))).toInt := by
    rw [midScatter_start1, midScatter_window1]; simp
  have h2 : (midScatterDims B N D E wf).start (ix3 b e o) idx 2 + ((midScatterDims B N D E wf).window (ix3 b e o) 2 : Int)
      = (o.val : Int) := by
    rw [midScatter_start2, midScatter_window2]; simp
  constructor
  · intro hs
    unfold ScatterDims.resultIdx? at hs
    split at hs
    · rename_i h
      have hf := Option.some.inj hs
      have e0 : ((midScatterDims B N D E wf).start (ix3 b e o) idx 0 + ((midScatterDims B N D E wf).window (ix3 b e o) 0 : Int)).toNat
          = b'.val := congrArg Fin.val (congrFun hf 0)
      have e1 : ((midScatterDims B N D E wf).start (ix3 b e o) idx 1 + ((midScatterDims B N D E wf).window (ix3 b e o) 1 : Int)).toNat
          = n.val := congrArg Fin.val (congrFun hf 1)
      have e2 : ((midScatterDims B N D E wf).start (ix3 b e o) idx 2 + ((midScatterDims B N D E wf).window (ix3 b e o) 2 : Int)).toNat
          = o'.val := congrArg Fin.val (congrFun hf 2)
      have b1 : 0 ≤ (midScatterDims B N D E wf).start (ix3 b e o) idx 1 + ((midScatterDims B N D E wf).window (ix3 b e o) 1 : Int) :=
        (h 1).1
      rw [h0] at e0
      rw [h1] at e1 b1
      rw [h2] at e2
      exact ⟨by omega, Fin.ext (by omega), Fin.ext (by omega)⟩
    · exact absurd hs (by simp)
  · rintro ⟨hr, rfl, rfl⟩
    have hb : b.val < B := b.isLt
    have hn : n.val < N := n.isLt
    have ho : o.val < D := o.isLt
    have h : ∀ a, 0 ≤ (midScatterDims B N D E wf).start (ix3 b e o) idx a + ((midScatterDims B N D E wf).window (ix3 b e o) a : Int)
        ∧ (midScatterDims B N D E wf).start (ix3 b e o) idx a + ((midScatterDims B N D E wf).window (ix3 b e o) a : Int)
          < ((⟨3, ![B, N, D]⟩ : Shape).size a : Int) := by
      intro a
      match a with
      | ⟨0, _⟩ =>
        show 0 ≤ (midScatterDims B N D E wf).start (ix3 b e o) idx 0 + ((midScatterDims B N D E wf).window (ix3 b e o) 0 : Int)
          ∧ (midScatterDims B N D E wf).start (ix3 b e o) idx 0 + ((midScatterDims B N D E wf).window (ix3 b e o) 0 : Int) < (B : Int)
        rw [h0]; omega
      | ⟨1, _⟩ =>
        show 0 ≤ (midScatterDims B N D E wf).start (ix3 b e o) idx 1 + ((midScatterDims B N D E wf).window (ix3 b e o) 1 : Int)
          ∧ (midScatterDims B N D E wf).start (ix3 b e o) idx 1 + ((midScatterDims B N D E wf).window (ix3 b e o) 1 : Int) < (N : Int)
        rw [h1, hr]; omega
      | ⟨2, _⟩ =>
        show 0 ≤ (midScatterDims B N D E wf).start (ix3 b e o) idx 2 + ((midScatterDims B N D E wf).window (ix3 b e o) 2 : Int)
          ∧ (midScatterDims B N D E wf).start (ix3 b e o) idx 2 + ((midScatterDims B N D E wf).window (ix3 b e o) 2 : Int) < (D : Int)
        rw [h2]; omega
    unfold ScatterDims.resultIdx?
    rw [dif_pos h]
    refine congrArg some (funext fun a => Fin.ext ?_)
    match a with
    | ⟨0, _⟩ =>
      show ((midScatterDims B N D E wf).start (ix3 b e o) idx 0 + ((midScatterDims B N D E wf).window (ix3 b e o) 0 : Int)).toNat = b.val
      rw [h0]; omega
    | ⟨1, _⟩ =>
      show ((midScatterDims B N D E wf).start (ix3 b e o) idx 1 + ((midScatterDims B N D E wf).window (ix3 b e o) 1 : Int)).toNat = n.val
      rw [h1, hr]; omega
    | ⟨2, _⟩ =>
      show ((midScatterDims B N D E wf).start (ix3 b e o) idx 2 + ((midScatterDims B N D E wf).window (ix3 b e o) 2 : Int)).toNat = o.val
      rw [h2]; omega

/-- THE MIDDLE AXIS ACCUMULATED at `(b, n, o)`: the operand there plus the updates `(b, e, o)` of the edges whose
    integer is `n` — the same edges as in the matrix layout. -/
theorem scatterAdd_mid_apply (x : (⟨3, ![B, N, D]⟩ : Shape).Idx → EReal) (upd : (⟨3, ![B, E, D]⟩ : Shape).Idx → EReal)
    (b : Fin B) (n : Fin N) (o : Fin D) :
    Ideal.hostScatterAdd (midScatterDims B N D E wf) x idx upd (ix3 b n o)
      = x (ix3 b n o) + ∑ e ∈ Finset.univ.filter (fun e : Fin E => (idx (ix2 e (0 : Fin 1))).toInt = (n.val : Int)),
          upd (ix3 b e o) := by
  unfold Ideal.hostScatterAdd
  refine congrArg (x (ix3 b n o) + ·) ?_
  have key : ∀ j : (⟨3, ![B, E, D]⟩ : Shape).Idx, (midScatterDims B N D E wf).resultIdx? j idx = some (ix3 b n o) →
      (idx (ix2 (j 1 : Fin E) (0 : Fin 1))).toInt = (n.val : Int) ∧ ix3 b (j 1 : Fin E) o = j := by
    intro j hj
    obtain ⟨b', e, o', rfl⟩ : ∃ (b' : Fin B) (e : Fin E) (o' : Fin D), j = ix3 b' e o' := ⟨j 0, j 1, j 2, eq_ix3 j⟩
    obtain ⟨hr, rfl, rfl⟩ := (midScatter_resultIdx_iff wf idx b' e o' b n o).mp hj
    exact ⟨hr, rfl⟩
  refine Finset.sum_nbij' (fun j => (j 1 : Fin E)) (fun e => ix3 b e o) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (midScatter_resultIdx_iff wf idx b e o b n o).mpr ⟨(Finset.mem_filter.mp he).2, rfl, rfl⟩⟩
  · intro j hj
    exact (key j (Finset.mem_filter.mp hj).2).2
  · intro e _
    rfl
  · intro j hj
    exact congrArg upd (key j (Finset.mem_filter.mp hj).2).2.symm

end Mid

end Scatter

end Cert.Lib

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.LibColumnToVec.lean ====
/-
  An [a, 1] array shape-cast to the vector [a], read at i: the operand at (i, 0). Any a, any element type.
-/
import Idealize.ShloMosaic.Lib.Pipeline.Value
import Idealize.ShloMosaic.Lib.ValueIdx

namespace Cert.Lib

open Idealize.ShloMosaic Idealize.ShloMosaic.ValueIdx

variable {α : Type}

/-- A COLUMN [a, 1] cast to the vector [a] reads, at i, the column's entry (i, 0). -/
theorem colToVec_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h (ix1 i) (ix2 i (0 : Fin 1)) (by
    rw [Shape.rowMajor_val_two, Shape.rowMajor_val_one]
    show i.val * 1 + 0 = i.val
    omega)

end Cert.Lib
-- ==== Proof.KernelRun.lean ====
/-
  The kernel's result as a function of its arguments.

  Before the region the host prepares the arrays it is launched on: the two tables are gathered row by row at the edges'
  source and destination indices (a negative index wrapped by the table's height, then clamped into range — the same
  index arithmetic the reference does); each first-layer weight matrix is cut into its first and its last 128 rows; each
  bias vector [n] is re-laid as a row [1, n]; and every table and matrix changes float format, which on the extended reals
  changes nothing. After the region the [500000, 1] output is re-laid as the vector [500000]. Reading these layout steps at
  an index turns the region's whole-array function into the score of every edge from the ARGUMENT arrays
  (Cert.EdgeScore.scoreArr).
-/
import proofs.«149136_j38173669327127_2_alg».proof.Proof.Gen.KernelIdeal.Frame
import proofs.«149136_j38173669327127_2_alg».proof.Proof.KernelBlocks
import proofs.«149136_j38173669327127_2_alg».proof.Proof.EdgeScore
import proofs.«149136_j38173669327127_2_alg».proof.Proof.LibEdgeGatherScatter
import proofs.«149136_j38173669327127_2_alg».proof.Proof.LibRowLayout
import proofs.«149136_j38173669327127_2_alg».proof.Proof.LibColumnToVec
import Idealize.ShloMosaic.Lib.ValueIdx
import Idealize.ShloMosaic.Lib.Pipeline.Value
import Idealize.ShloMosaic.Lib.StableHlo.Run

set_option maxRecDepth 16384

noncomputable section

namespace Cert.KernelIdeal.ArrValue

open Cert.KernelIdeal Cert.KernelIdeal.Gen Cert.KernelIdeal.RowValue Cert.EdgeScore
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region is launched on -/

/-- The index array a gather is given: a negative index has the table's height 100000 added, and the vector is re-laid
    as a column. -/
def idxOf (a : IVec S500000 32) : IVec S500000x1 32 :=
  broadcastInDim S500000x1 ![0] bcast_S500000_S500000x1_0
    (select (cmpi .slt a (broadcastInDim S500000 ![] bcast_S_S500000 (constantI S_ 32 0#32)))
      (addi a (broadcastInDim S500000 ![] bcast_S_S500000 (constantI S_ 32 100000#32))) a)

/-- The user-table row edge e reads. -/
def srcRow (c : Dev nD) (e : Fin 500000) : Fin 100000 :=
  Cert.Lib.clampRow (E := 500000) (w := 32) 100000 (by decide) (idxOf (m ((c : Thread nD τ).loc main_arg2))) e
/-- The item-table row edge e reads. -/
def dstRow (c : Dev nD) (e : Fin 500000) : Fin 100000 :=
  Cert.Lib.clampRow (E := 500000) (w := 32) 100000 (by decide) (idxOf (m ((c : Thread nD τ).loc main_arg3))) e

set_option maxHeartbeats 4000000 in
theorem V_v8 (c : Dev nD) : @Eq (S500000x128.Idx → EReal) (V m c main_v8)
    (Host.gather gather_S100000x128_S500000x1_S500000x128_1_0_n_n_0_1_1128 (truncf (F := Ideal) .bf16 (m ((c : Thread nD τ).loc main_arg0)) bitsLt_bf16_f32) (idxOf (m ((c : Thread nD τ).loc main_arg2)))) := by
  unfold idxOf
  show StableHlo.after hostOps0 (fun b => m (c, b)) (Proc.devRef .tc main_v8) = _
  after_results <;> rfl

set_option maxHeartbeats 4000000 in
theorem V_v15 (c : Dev nD) : @Eq (S500000x128.Idx → EReal) (V m c main_v15)
    (Host.gather gather_S100000x128_S500000x1_S500000x128_1_0_n_n_0_1_1128 (truncf (F := Ideal) .bf16 (m ((c : Thread nD τ).loc main_arg1)) bitsLt_bf16_f32) (idxOf (m ((c : Thread nD τ).loc main_arg3)))) := by
  unfold idxOf
  show StableHlo.after hostOps0 (fun b => m (c, b)) (Proc.devRef .tc main_v15) = _
  after_results <;> rfl

theorem V_v17 (c : Dev nD) : @Eq (S128x256.Idx → EReal) (V m c main_v17)
    (truncf (F := Ideal) .bf16 (extractStridedSlice S128x256 ![0, 0] (m ((c : Thread nD τ).loc main_arg4)) slices_S256x256_S128x256_0_0) bitsLt_bf16_f32) := by
  show StableHlo.after hostOps0 (fun b => m (c, b)) (Proc.devRef .tc main_v17) = _
  after_results <;> rfl

theorem V_v19 (c : Dev nD) : @Eq (S128x256.Idx → EReal) (V m c main_v19)
    (truncf (F := Ideal) .bf16 (extractStridedSlice S128x256 ![128, 0] (m ((c : Thread nD τ).loc main_arg4)) slices_S256x256_S128x256_128_0) bitsLt_bf16_f32) := by
  show StableHlo.after hostOps0 (fun b => m (c, b)) (Proc.devRef .tc main_v19) = _
  after_results <;> rfl

theorem V_v21 (c : Dev nD) : @Eq (S128x64.Idx → EReal) (V m c main_v21)
    (truncf (F := Ideal) .bf16 (extractStridedSlice S128x64 ![0, 0] (m ((c : Thread nD τ).loc main_arg12)) slices_S256x64_S128x64_0_0) bitsLt_bf16_f32) := by
  show StableHlo.after hostOps0 (fun b => m (c, b)) (Proc.devRef .tc main_v21) = _
  after_results <;> rfl

theorem V_v23 (c : Dev nD) : @Eq (S128x64.Idx → EReal) (V m c main_v23)
    (truncf (F := Ideal) .bf16 (extractStridedSlice S128x64 ![128, 0] (m ((c : Thread nD τ).loc main_arg12)) slices_S256x64_S128x64_128_0) bitsLt_bf16_f32) := by
  show StableHlo.after hostOps0 (fun b => m (c, b)) (Proc.devRef .tc main_v23) = _
  after_results <;> rfl

theorem V_v24 (c : Dev nD) : @Eq (S256x128.Idx → EReal) (V m c main_v24) (truncf (F := Ideal) .bf16 (m ((c : Thread nD τ).loc main_arg6)) bitsLt_bf16_f32) := by
  show StableHlo.after hostOps0 (fun b => m (c, b)) (Proc.devRef .tc main_v24) = _
  after_results <;> rfl

theorem V_v25 (c : Dev nD) : @Eq (S128x64.Idx → EReal) (V m c main_v25) (truncf (F := Ideal) .bf16 (m ((c : Thread nD τ).loc main_arg8)) bitsLt_bf16_f32) := by
  show StableHlo.after hostOps0 (fun b => m (c, b)) (Proc.devRef .tc main_v25) = _
  after_results <;> rfl

theorem V_v26 (c : Dev nD) : @Eq (S64x1.Idx → EReal) (V m c main_v26) (truncf (F := Ideal) .bf16 (m ((c : Thread nD τ).loc main_arg10)) bitsLt_bf16_f32) := by
  show StableHlo.after hostOps0 (fun b => m (c, b)) (Proc.devRef .tc main_v26) = _
  after_results <;> rfl

theorem V_v27 (c : Dev nD) : @Eq (S64x2.Idx → EReal) (V m c main_v27) (truncf (F := Ideal) .bf16 (m ((c : Thread nD τ).loc main_arg14)) bitsLt_bf16_f32) := by
  show StableHlo.after hostOps0 (fun b => m (c, b)) (Proc.devRef .tc main_v27) = _
  after_results <;> rfl

theorem V_v28 (c : Dev nD) : @Eq (S1x256.Idx → EReal) (V m c main_v28) (shapeCast S1x256 (m ((c : Thread nD τ).loc main_arg5)) shapeCasts_S256_S1x256) := by
  show StableHlo.after hostOps0 (fun b => m (c, b)) (Proc.devRef .tc main_v28) = _
  after_results <;> rfl

theorem V_v29 (c : Dev nD) : @Eq (S1x128.Idx → EReal) (V m c main_v29) (shapeCast S1x128 (m ((c : Thread nD τ).loc main_arg7)) shapeCasts_S128_S1x128) := by
  show StableHlo.after hostOps0 (fun b => m (c, b)) (Proc.devRef .tc main_v29) = _
  after_results <;> rfl

theorem V_v30 (c : Dev nD) : @Eq (S1x64.Idx → EReal) (V m c main_v30) (shapeCast S1x64 (m ((c : Thread nD τ).loc main_arg9)) shapeCasts_S64_S1x64) := by
  show StableHlo.after hostOps0 (fun b => m (c, b)) (Proc.devRef .tc main_v30) = _
  after_results <;> rfl

theorem V_v31 (c : Dev nD) : @Eq (S1x1.Idx → EReal) (V m c main_v31) (shapeCast S1x1 (m ((c : Thread nD τ).loc main_arg11)) shapeCasts_S1_S1x1) := by
  show StableHlo.after hostOps0 (fun b => m (c, b)) (Proc.devRef .tc main_v31) = _
  after_results <;> rfl

theorem V_v32 (c : Dev nD) : @Eq (S1x64.Idx → EReal) (V m c main_v32) (shapeCast S1x64 (m ((c : Thread nD τ).loc main_arg13)) shapeCasts_S64_S1x64) := by
  show StableHlo.after hostOps0 (fun b => m (c, b)) (Proc.devRef .tc main_v32) = _
  after_results <;> rfl

theorem V_v33 (c : Dev nD) : @Eq (S1x2.Idx → EReal) (V m c main_v33) (shapeCast S1x2 (m ((c : Thread nD τ).loc main_arg15)) shapeCasts_S2_S1x2) := by
  show StableHlo.after hostOps0 (fun b => m (c, b)) (Proc.devRef .tc main_v33) = _
  after_results <;> rfl

/-! ## Each launched array at an index, from the arguments -/

theorem v8_at (c : Dev nD) (e : Fin 500000) (k : Fin 128) :
    (V m c main_v8 : S500000x128.Idx → EReal) (ix2 e k) = ((m ((c : Thread nD τ).loc main_arg0)) : S100000x128.Idx → EReal) (ix2 (srcRow m c e) k) :=
  (congrFun (V_v8 m c) (ix2 e k)).trans (Cert.Lib.gather_rows_apply (by decide) _ _ _ e k)

theorem v15_at (c : Dev nD) (e : Fin 500000) (k : Fin 128) :
    (V m c main_v15 : S500000x128.Idx → EReal) (ix2 e k) = ((m ((c : Thread nD τ).loc main_arg1)) : S100000x128.Idx → EReal) (ix2 (dstRow m c e) k) :=
  (congrFun (V_v15 m c) (ix2 e k)).trans (Cert.Lib.gather_rows_apply (by decide) _ _ _ e k)

theorem v17_at (c : Dev nD) (k : Fin 128) (q : Fin 256) :
    (V m c main_v17 : S128x256.Idx → EReal) (ix2 k q) = ((m ((c : Thread nD τ).loc main_arg4)) : S256x256.Idx → EReal) (ix2 (lo k) q) :=
  (congrFun (V_v17 m c) (ix2 k q)).trans (extractStridedSlice_apply (t := S128x256) ![0, 0] (m ((c : Thread nD τ).loc main_arg4)) slices_S256x256_S128x256_0_0 (ix2 k q) (ix2 (lo k) q) (fun ax => match ax with
    | ⟨0, _⟩ => (Nat.zero_add _).symm
    | ⟨1, _⟩ => (Nat.zero_add _).symm))

theorem v19_at (c : Dev nD) (k : Fin 128) (q : Fin 256) :
    (V m c main_v19 : S128x256.Idx → EReal) (ix2 k q) = ((m ((c : Thread nD τ).loc main_arg4)) : S256x256.Idx → EReal) (ix2 (hi k) q) :=
  (congrFun (V_v19 m c) (ix2 k q)).trans (extractStridedSlice_apply (t := S128x256) ![128, 0] (m ((c : Thread nD τ).loc main_arg4)) slices_S256x256_S128x256_128_0 (ix2 k q) (ix2 (hi k) q) (fun ax => match ax with
    | ⟨0, _⟩ => rfl
    | ⟨1, _⟩ => (Nat.zero_add _).symm))

theorem v21_at (c : Dev nD) (k : Fin 128) (q : Fin 64) :
    (V m c main_v21 : S128x64.Idx → EReal) (ix2 k q) = ((m ((c : Thread nD τ).loc main_arg12)) : S256x64.Idx → EReal) (ix2 (lo k) q) :=
  (congrFun (V_v21 m c) (ix2 k q)).trans (extractStridedSlice_apply (t := S128x64) ![0, 0] (m ((c : Thread nD τ).loc main_arg12)) slices_S256x64_S128x64_0_0 (ix2 k q) (ix2 (lo k) q) (fun ax => match ax with
    | ⟨0, _⟩ => (Nat.zero_add _).symm
    | ⟨1, _⟩ => (Nat.zero_add _).symm))

theorem v23_at (c : Dev nD) (k : Fin 128) (q : Fin 64) :
    (V m c main_v23 : S128x64.Idx → EReal) (ix2 k q) = ((m ((c : Thread nD τ).loc main_arg12)) : S256x64.Idx → EReal) (ix2 (hi k) q) :=
  (congrFun (V_v23 m c) (ix2 k q)).trans (extractStridedSlice_apply (t := S128x64) ![128, 0] (m ((c : Thread nD τ).loc main_arg12)) slices_S256x64_S128x64_128_0 (ix2 k q) (ix2 (hi k) q) (fun ax => match ax with
    | ⟨0, _⟩ => rfl
    | ⟨1, _⟩ => (Nat.zero_add _).symm))

theorem v24_at (c : Dev nD) (k : Fin 256) (q : Fin 128) :
    (V m c main_v24 : S256x128.Idx → EReal) (ix2 k q) = ((m ((c : Thread nD τ).loc main_arg6)) : S256x128.Idx → EReal) (ix2 k q) := congrFun (V_v24 m c) (ix2 k q)
theorem v25_at (c : Dev nD) (k : Fin 128) (q : Fin 64) :
    (V m c main_v25 : S128x64.Idx → EReal) (ix2 k q) = ((m ((c : Thread nD τ).loc main_arg8)) : S128x64.Idx → EReal) (ix2 k q) := congrFun (V_v25 m c) (ix2 k q)
theorem v26_at (c : Dev nD) (k : Fin 64) (q : Fin 1) :
    (V m c main_v26 : S64x1.Idx → EReal) (ix2 k q) = ((m ((c : Thread nD τ).loc main_arg10)) : S64x1.Idx → EReal) (ix2 k q) := congrFun (V_v26 m c) (ix2 k q)
theorem v27_at (c : Dev nD) (k : Fin 64) (q : Fin 2) :
    (V m c main_v27 : S64x2.Idx → EReal) (ix2 k q) = ((m ((c : Thread nD τ).loc main_arg14)) : S64x2.Idx → EReal) (ix2 k q) := congrFun (V_v27 m c) (ix2 k q)

theorem v28_at (c : Dev nD) (q : Fin 256) :
    (V m c main_v28 : S1x256.Idx → EReal) (ix2 (0 : Fin 1) q) = ((m ((c : Thread nD τ).loc main_arg5)) : S256.Idx → EReal) (ix1 q) :=
  (congrFun (V_v28 m c) (ix2 0 q)).trans (Cert.Lib.vecToRow_apply _ _ q)
theorem v29_at (c : Dev nD) (q : Fin 128) :
    (V m c main_v29 : S1x128.Idx → EReal) (ix2 (0 : Fin 1) q) = ((m ((c : Thread nD τ).loc main_arg7)) : S128.Idx → EReal) (ix1 q) :=
  (congrFun (V_v29 m c) (ix2 0 q)).trans (Cert.Lib.vecToRow_apply _ _ q)
theorem v30_at (c : Dev nD) (q : Fin 64) :
    (V m c main_v30 : S1x64.Idx → EReal) (ix2 (0 : Fin 1) q) = ((m ((c : Thread nD τ).loc main_arg9)) : S64.Idx → EReal) (ix1 q) :=
  (congrFun (V_v30 m c) (ix2 0 q)).trans (Cert.Lib.vecToRow_apply _ _ q)
theorem v31_at (c : Dev nD) (q : Fin 1) :
    (V m c main_v31 : S1x1.Idx → EReal) (ix2 (0 : Fin 1) q) = ((m ((c : Thread nD τ).loc main_arg11)) : S1.Idx → EReal) (ix1 q) :=
  (congrFun (V_v31 m c) (ix2 0 q)).trans (Cert.Lib.vecToRow_apply _ _ q)
theorem v32_at (c : Dev nD) (q : Fin 64) :
    (V m c main_v32 : S1x64.Idx → EReal) (ix2 (0 : Fin 1) q) = ((m ((c : Thread nD τ).loc main_arg13)) : S64.Idx → EReal) (ix1 q) :=
  (congrFun (V_v32 m c) (ix2 0 q)).trans (Cert.Lib.vecToRow_apply _ _ q)
theorem v33_at (c : Dev nD) (q : Fin 2) :
    (V m c main_v33 : S1x2.Idx → EReal) (ix2 (0 : Fin 1) q) = ((m ((c : Thread nD τ).loc main_arg15)) : S2.Idx → EReal) (ix1 q) :=
  (congrFun (V_v33 m c) (ix2 0 q)).trans (Cert.Lib.vecToRow_apply _ _ q)

/-! ## The region's output from the arguments -/

/-- The score depends on its sixteen arguments only through their values. -/
theorem rowScore_congr {s s' d d' : Fin 128 → EReal} {W1a W1a' W1b W1b' : Fin 128 → Fin 256 → EReal} {b1 b1' : Fin 256 → EReal}
    {W2 W2' : Fin 256 → Fin 128 → EReal} {b2 b2' : Fin 128 → EReal} {W3 W3' : Fin 128 → Fin 64 → EReal} {b3 b3' : Fin 64 → EReal}
    {W4 W4' : Fin 64 → Fin 1 → EReal} {b4 b4' : Fin 1 → EReal} {Wg1a Wg1a' Wg1b Wg1b' : Fin 128 → Fin 64 → EReal}
    {bg1 bg1' : Fin 64 → EReal} {Wg2 Wg2' : Fin 64 → Fin 2 → EReal} {bg2 bg2' : Fin 2 → EReal}
    (e0 : s = s') (e1 : d = d') (e2 : W1a = W1a') (e3 : W1b = W1b') (e4 : b1 = b1') (e5 : W2 = W2') (e6 : b2 = b2') (e7 : W3 = W3')
    (e8 : b3 = b3') (e9 : W4 = W4') (e10 : b4 = b4') (e11 : Wg1a = Wg1a') (e12 : Wg1b = Wg1b') (e13 : bg1 = bg1')
    (e14 : Wg2 = Wg2') (e15 : bg2 = bg2') :
    rowScore s d W1a W1b b1 W2 b2 W3 b3 W4 b4 Wg1a Wg1b bg1 Wg2 bg2
      = rowScore s' d' W1a' W1b' b1' W2' b2' W3' b3' W4' b4' Wg1a' Wg1b' bg1' Wg2' bg2' := by
  subst e0 e1 e2 e3 e4 e5 e6 e7 e8 e9 e10 e11 e12 e13 e14 e15; rfl

/-- The score of the edge whose rows are row r of the two gathered arrays, with the launched weights, is its score with
    the argument arrays: row r of a gathered array is the table's row the edge selects, a half of a first-layer matrix is
    its first or last 128 rows, a bias row is the bias vector. -/
theorem row_from_args (c : Dev nD) (r : Fin 500000) :
    rowScore (fun k => (V m c main_v8 : S500000x128.Idx → EReal) (ix2 r k)) (fun k => (V m c main_v15 : S500000x128.Idx → EReal) (ix2 r k))
        (fun k q => (V m c main_v17 : S128x256.Idx → EReal) (ix2 k q)) (fun k q => (V m c main_v19 : S128x256.Idx → EReal) (ix2 k q))
        (fun q => (V m c main_v28 : S1x256.Idx → EReal) (ix2 (0 : Fin 1) q)) (fun k q => (V m c main_v24 : S256x128.Idx → EReal) (ix2 k q))
        (fun q => (V m c main_v29 : S1x128.Idx → EReal) (ix2 (0 : Fin 1) q)) (fun k q => (V m c main_v25 : S128x64.Idx → EReal) (ix2 k q))
        (fun q => (V m c main_v30 : S1x64.Idx → EReal) (ix2 (0 : Fin 1) q)) (fun k q => (V m c main_v26 : S64x1.Idx → EReal) (ix2 k q))
        (fun q => (V m c main_v31 : S1x1.Idx → EReal) (ix2 (0 : Fin 1) q))
        (fun k q => (V m c main_v21 : S128x64.Idx → EReal) (ix2 k q)) (fun k q => (V m c main_v23 : S128x64.Idx → EReal) (ix2 k q))
        (fun q => (V m c main_v32 : S1x64.Idx → EReal) (ix2 (0 : Fin 1) q)) (fun k q => (V m c main_v27 : S64x2.Idx → EReal) (ix2 k q))
        (fun q => (V m c main_v33 : S1x2.Idx → EReal) (ix2 (0 : Fin 1) q))
      = rowScore (fun k => ((m ((c : Thread nD τ).loc main_arg0)) : S100000x128.Idx → EReal) (ix2 (srcRow m c r) k)) (fun k => ((m ((c : Thread nD τ).loc main_arg1)) : S100000x128.Idx → EReal) (ix2 (dstRow m c r) k))
        (fun k q => ((m ((c : Thread nD τ).loc main_arg4)) : S256x256.Idx → EReal) (ix2 (lo k) q)) (fun k q => ((m ((c : Thread nD τ).loc main_arg4)) : S256x256.Idx → EReal) (ix2 (hi k) q)) (fun q => ((m ((c : Thread nD τ).loc main_arg5)) : S256.Idx → EReal) (ix1 q))
        (fun k q => ((m ((c : Thread nD τ).loc main_arg6)) : S256x128.Idx → EReal) (ix2 k q)) (fun q => ((m ((c : Thread nD τ).loc main_arg7)) : S128.Idx → EReal) (ix1 q)) (fun k q => ((m ((c : Thread nD τ).loc main_arg8)) : S128x64.Idx → EReal) (ix2 k q)) (fun q => ((m ((c : Thread nD τ).loc main_arg9)) : S64.Idx → EReal) (ix1 q))
        (fun k q => ((m ((c : Thread nD τ).loc main_arg10)) : S64x1.Idx → EReal) (ix2 k q)) (fun q => ((m ((c : Thread nD τ).loc main_arg11)) : S1.Idx → EReal) (ix1 q))
        (fun k q => ((m ((c : Thread nD τ).loc main_arg12)) : S256x64.Idx → EReal) (ix2 (lo k) q)) (fun k q => ((m ((c : Thread nD τ).loc main_arg12)) : S256x64.Idx → EReal) (ix2 (hi k) q)) (fun q => ((m ((c : Thread nD τ).loc main_arg13)) : S64.Idx → EReal) (ix1 q))
        (fun k q => ((m ((c : Thread nD τ).loc main_arg14)) : S64x2.Idx → EReal) (ix2 k q)) (fun q => ((m ((c : Thread nD τ).loc main_arg15)) : S2.Idx → EReal) (ix1 q)) := by
  exact rowScore_congr (funext fun k => v8_at m c r k) (funext fun k => v15_at m c r k)
    (funext fun k => funext fun q => v17_at m c k q) (funext fun k => funext fun q => v19_at m c k q) (funext fun q => v28_at m c q)
    (funext fun k => funext fun q => v24_at m c k q) (funext fun q => v29_at m c q) (funext fun k => funext fun q => v25_at m c k q)
    (funext fun q => v30_at m c q) (funext fun k => funext fun q => v26_at m c k q) (funext fun q => v31_at m c q)
    (funext fun k => funext fun q => v21_at m c k q) (funext fun k => funext fun q => v23_at m c k q) (funext fun q => v32_at m c q)
    (funext fun k => funext fun q => v27_at m c k q) (funext fun q => v33_at m c q)

/-- Row e of the region's output is the score of edge e from the argument arrays. -/
theorem regionOut_at (c : Dev nD) (e : Fin 500000) :
    regionOut m c (ix2 e (0 : Fin 1)) = scoreArr (m ((c : Thread nD τ).loc main_arg0)) (m ((c : Thread nD τ).loc main_arg1)) (srcRow m c) (dstRow m c) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix1 e) :=
  row_from_args m c e

/-! ## The host's re-laying of the output, and the run -/

/-- THE KERNEL'S RESULT: the score of every edge from the argument arrays. -/
theorem result_eq (c : Dev nD) :
    (Pipeline.afterTail₀ cfgs (dats m) 0 (V0 m) [hostOps1] c main_v35 : S500000.Idx → EReal) = scoreArr (m ((c : Thread nD τ).loc main_arg0)) (m ((c : Thread nD τ).loc main_arg1)) (srcRow m c) (dstRow m c) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h1 : (Pipeline.afterTail₀ cfgs (dats m) 0 (V0 m) [hostOps1] c main_v35 : S500000.Idx → EReal)
      = shapeCast S500000 (regionOut m c) shapeCasts_S500000x1_S500000 := by
    unfold Pipeline.afterTail₀
    show StableHlo.after hostOps1 _ (Proc.devRef .tc main_v35) = _
    after_results
    rw [Pipeline.withArrays_arr spec0 launch0.win.arr_inj c _ _ 16, final]
    rfl
  rw [h1]
  funext i
  obtain ⟨e, rfl⟩ : ∃ e : Fin 500000, i = ix1 e := ⟨i 0, eq_ix1 i⟩
  exact (Cert.Lib.colToVec_apply _ _ e).trans (regionOut_at m c e)

/-- The kernel's run: it terminates without a fault, its result is the score of every edge from the argument arrays,
    and the arguments end unchanged. -/
theorem run : θ_run defs (onTc (τ := τ) (main (F := Ideal))) ⟨m, fun _ => 0, ρ⟩ (fun r => ∀ c : Dev nD,
      r.2.mem ((c.tc : Thread nD τ).loc main_v35) = scoreArr (m ((c : Thread nD τ).loc main_arg0)) (m ((c : Thread nD τ).loc main_arg1)) (srcRow m c) (dstRow m c) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((h c).2 main_v35 (Pipeline.mem_restRefs_of main_v35 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c))⟩) (run_main m ρ)

end Cert.KernelIdeal.ArrValue

end
-- ==== Proof.LibConcatPair.lean ====
/-
  Two arrays joined along one axis, read at an index.

  A matrix of A columns joined on its right to a matrix of B columns (a concatenation along axis 1 into T columns): at
  column j < A the joined matrix reads the first at column j, and at column A + i it reads the second at column i.  The same
  for two vectors joined end to end (a concatenation along axis 0 of rank-1 arrays).  Any element type.
-/
import Idealize.ShloMosaic.Lib.Pipeline.Value
import Idealize.ShloMosaic.Lib.ValueIdx

namespace Cert.Lib.ConcatPair

open Idealize.ShloMosaic Idealize.ShloMosaic.ValueIdx

variable {α : Type}

/-- Two matrices joined side by side, read in the FIRST one's columns. -/
theorem cols_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin A) (hi : i.val = j.val) :
    concatenate ⟨2, ![R, T]⟩ 1 [⟨⟨2, ![R, A]⟩, x₁⟩, ⟨⟨2, ![R, B]⟩, x₂⟩] h (ix2 r j) = x₁ (ix2 r i) :=
  concatenate_pair_apply_left (1 : Fin 2) x₁ x₂ h (ix2 r j) rfl (ix2 r i) (fun b => match b with
    | ⟨0, _⟩ => rfl
    | ⟨1, _⟩ => hi)

/-- Two matrices joined side by side, read in the SECOND one's columns: column A + i of the join is its column i. -/
theorem cols_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin B) (hi : i.val + A = j.val) :
    concatenate ⟨2, ![R, T]⟩ 1 [⟨⟨2, ![R, A]⟩, x₁⟩, ⟨⟨2, ![R, B]⟩, x₂⟩] h (ix2 r j) = x₂ (ix2 r i) :=
  concatenate_pair_apply_right (1 : Fin 2) x₁ x₂ h (ix2 r j) rfl rfl (ix2 r i) (fun b => match b with
    | ⟨0, _⟩ => fun _ => rfl
    | ⟨1, _⟩ => fun hb => absurd rfl hb) hi

/-- Two vectors joined end to end, read in the FIRST one's stretch. -/
theorem vec_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin A) (hi : i.val = j.val) :
    concatenate ⟨1, ![T]⟩ 0 [⟨⟨1, ![A]⟩, x₁⟩, ⟨⟨1, ![B]⟩, x₂⟩] h (ix1 j) = x₁ (ix1 i) :=
  concatenate_pair_apply_left (0 : Fin 1) x₁ x₂ h (ix1 j) rfl (ix1 i) (fun b => match b with
    | ⟨0, _⟩ => hi)

/-- Two vectors joined end to end, read in the SECOND one's stretch: position A + i of the join is its position i. -/
theorem vec_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin B) (hi : i.val + A = j.val) :
    concatenate ⟨1, ![T]⟩ 0 [⟨⟨1, ![A]⟩, x₁⟩, ⟨⟨1, ![B]⟩, x₂⟩] h (ix1 j) = x₂ (ix1 i) :=
  concatenate_pair_apply_right (0 : Fin 1) x₁ x₂ h (ix1 j) rfl rfl (ix1 i) (fun b => match b with
    | ⟨0, _⟩ => fun hb => absurd rfl hb) hi

end Cert.Lib.ConcatPair
-- ==== Proof.LibHostRowMax.lean ====
/-
  The host's maximum of each row of an [a, b] matrix (a one-operand reduce with a maximum body over axis 1), read at a
  row: the fold of max, from the initial value's one element, over k of the matrix at (p, k). Any a, b, any float format.
  It is the same fold a kernel's lane maximum over axis 1 reads as, so the two can be compared term by term.
-/
import Idealize.ShloMosaic.Lib.ValueIdx
import Idealize.ShloMosaic.PureOps.Ideal
import Idealize.ShloMosaic.PureOps.Ideal.Laws
import Idealize.ShloMosaic.PureOps.Reduce

noncomputable section

namespace Cert.Lib

open Idealize.ShloMosaic Idealize.ShloMosaic.ValueIdx

/-- HOST ROW MAXIMA: at row p, the fold of max from the initial value over k of the matrix at (p, k). -/
theorem hostRowMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) := by
  refine (Host.reduce_eq_fold_single (FloatOps.maximumf (F := Ideal) (φ := φ)) x init h' h hu (ix1 p)).trans ?_
  refine congrArg ((Finset.univ : Finset (Fin b)).fold max (init (Shape.Idx.first hu))) (funext fun k => congrArg x (funext fun c => Fin.ext ?_))
  match c with
  | ⟨0, _⟩ => rfl
  | ⟨1, _⟩ => rfl

end Cert.Lib

end
-- ==== Proof.LibHostRowSum.lean ====
/-
  The host's sum of each row of an [a, b] matrix (a one-operand reduce with an add body over axis 1), read at a row on the
  extended reals: the initial value's one element plus the sum over k of the matrix at (p, k). Any a, b, any float format.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- HOST ROW SUMS: at row p, the initial value plus the sum over k of the matrix at (p, k). -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

end Cert.Lib

end
-- ==== Proof.RefRow.lean ====
/-
  The reference, read one edge at a time.

  The reference gathers each edge's user row and item row, lays them end to end into a 256-entry row, and runs the
  perceptron and the gate on all 500000 joined rows at once. Every operation after the gathers is row-wise, so reading the
  result at edge e gives the score of one edge (Cert.EdgeScore.rowScore) of the two gathered rows. The joined row meets
  a first layer's 256-row weight matrix in a sum over 256 positions; split in two halves (Cert.EdgeScore.sum_split), the
  first half reads the user row against the first 128 rows of the weights and the second half the item row against the
  last 128 — the form in which the kernel computes it. The host's sum of a row starts from the zero word, which is the
  real 0, so it adds nothing.
-/
import proofs.«149136_j38173669327127_2_alg».proof.Proof.Gen.ReferenceIdeal.Read
import proofs.«149136_j38173669327127_2_alg».proof.Proof.EdgeScore
import proofs.«149136_j38173669327127_2_alg».proof.Proof.LibPlainDot
import proofs.«149136_j38173669327127_2_alg».proof.Proof.LibEdgeGatherScatter
import proofs.«149136_j38173669327127_2_alg».proof.Proof.LibConcatPair
import proofs.«149136_j38173669327127_2_alg».proof.Proof.LibHostRowMax
import proofs.«149136_j38173669327127_2_alg».proof.Proof.LibHostRowSum
import Idealize.ShloMosaic.Lib.ValueIdx
import Idealize.ShloMosaic.Lib.Pipeline.Value
import Idealize.ShloMosaic.PureOps.Ideal.Laws

set_option maxRecDepth 16384

noncomputable section

namespace Cert.ReferenceIdeal.RowValue

open Cert.ReferenceIdeal Cert.ReferenceIdeal.Gen Cert.ReferenceIdeal.Read Cert.EdgeScore Idealize.ShloMosaic Idealize.ShloMosaic.ValueIdx

variable (x0 x1 : (⟨S100000x128, .f32⟩ : BufTy).Contents (Elt Ideal)) (x2 x3 : (⟨S500000, .i32⟩ : BufTy).Contents (Elt Ideal))
  (x4 : (⟨S256x256, .f32⟩ : BufTy).Contents (Elt Ideal)) (x5 : (⟨S256, .f32⟩ : BufTy).Contents (Elt Ideal))
  (x6 : (⟨S256x128, .f32⟩ : BufTy).Contents (Elt Ideal)) (x7 : (⟨S128, .f32⟩ : BufTy).Contents (Elt Ideal))
  (x8 : (⟨S128x64, .f32⟩ : BufTy).Contents (Elt Ideal)) (x9 : (⟨S64, .f32⟩ : BufTy).Contents (Elt Ideal))
  (x10 : (⟨S64x1, .f32⟩ : BufTy).Contents (Elt Ideal)) (x11 : (⟨S1, .f32⟩ : BufTy).Contents (Elt Ideal))
  (x12 : (⟨S256x64, .f32⟩ : BufTy).Contents (Elt Ideal)) (x13 : (⟨S64, .f32⟩ : BufTy).Contents (Elt Ideal))
  (x14 : (⟨S64x2, .f32⟩ : BufTy).Contents (Elt Ideal)) (x15 : (⟨S2, .f32⟩ : BufTy).Contents (Elt Ideal))

/-! ## The rows an edge reads -/

/-- The user-table row edge e reads: its source index, negative ones wrapped by the table's height, clamped into range. -/
def srcRow (e : Fin 500000) : Fin 100000 :=
  Cert.Lib.clampRow (E := 500000) (w := 32) 100000 (by decide) (val_main_v5 (F := Ideal) x2) e
/-- The item-table row edge e reads. -/
def dstRow (e : Fin 500000) : Fin 100000 :=
  Cert.Lib.clampRow (E := 500000) (w := 32) 100000 (by decide) (val_main_v12 (F := Ideal) x3) e

/-- Edge e's user row. -/
def sRow (e : Fin 500000) : Fin 128 → EReal := fun k => x0 (ix2 (srcRow x2 e) k)
/-- Edge e's item row. -/
def dRow (e : Fin 500000) : Fin 128 → EReal := fun k => x1 (ix2 (dstRow x3 e) k)

theorem v6_at (e : Fin 500000) (k : Fin 128) : val_main_v6 (F := Ideal) x0 x2 (ix2 e k) = sRow x0 x2 e k := by
  unfold val_main_v6
  exact Cert.Lib.gather_rows_apply (by decide) _ x0 (val_main_v5 (F := Ideal) x2) e k

theorem v13_at (e : Fin 500000) (k : Fin 128) : val_main_v13 (F := Ideal) x1 x3 (ix2 e k) = dRow x1 x3 e k := by
  unfold val_main_v13
  exact Cert.Lib.gather_rows_apply (by decide) _ x1 (val_main_v12 (F := Ideal) x3) e k

/-- The joined row's first half is the user row. -/
theorem v14_lo (e : Fin 500000) (k : Fin 128) : val_main_v14 (F := Ideal) x0 x1 x2 x3 (ix2 e (lo k)) = sRow x0 x2 e k := by
  unfold val_main_v14
  exact (Cert.Lib.ConcatPair.cols_left _ _ _ e (lo k) k rfl).trans (v6_at x0 x2 e k)

/-- The joined row's second half is the item row. -/
theorem v14_hi (e : Fin 500000) (k : Fin 128) : val_main_v14 (F := Ideal) x0 x1 x2 x3 (ix2 e (hi k)) = dRow x1 x3 e k := by
  unfold val_main_v14
  exact (Cert.Lib.ConcatPair.cols_right _ _ _ e (hi k) k (Nat.add_comm _ _)).trans (v13_at x1 x3 e k)

/-! ## The inner product -/

theorem v16_at (e : Fin 500000) : val_main_v16 (F := Ideal) x0 x1 x2 x3 (ix1 e) = inner (sRow x0 x2 e) (dRow x1 x3 e) := by
  unfold val_main_v16
  refine (Cert.Lib.hostRowSum_apply _ _ _ (by decide) _ e).trans ?_
  show Ideal.ofBits .f32 0x00000000#32 + _ = _
  rw [Ideal.ofBits_zero_f32, zero_add]
  refine Finset.sum_congr rfl fun k _ => ?_
  show val_main_v6 (F := Ideal) x0 x2 (ix2 e k) * val_main_v13 (F := Ideal) x1 x3 (ix2 e k) = _
  rw [v6_at, v13_at]

/-! ## The perceptron -/

/-- The first hidden layer of the perceptron at edge e. -/
def h1 (e : Fin 500000) : Fin 256 → EReal :=
  hiddenPair (sRow x0 x2 e) (dRow x1 x3 e) (fun k q => x4 (ix2 (lo k) q)) (fun k q => x4 (ix2 (hi k) q)) (fun q => x5 (ix1 q))
/-- The second. -/
def h2 (e : Fin 500000) : Fin 128 → EReal := hidden (h1 x0 x1 x2 x3 x4 x5 e) (fun k q => x6 (ix2 k q)) (fun q => x7 (ix1 q))
/-- The third. -/
def h3 (e : Fin 500000) : Fin 64 → EReal := hidden (h2 x0 x1 x2 x3 x4 x5 x6 x7 e) (fun k q => x8 (ix2 k q)) (fun q => x9 (ix1 q))

theorem v17_at (e : Fin 500000) (j : Fin 256) : val_main_v17 (F := Ideal) x0 x1 x2 x3 x4 (ix2 e j)
    = lin (sRow x0 x2 e) (fun k q => x4 (ix2 (lo k) q)) j + lin (dRow x1 x3 e) (fun k q => x4 (ix2 (hi k) q)) j := by
  unfold val_main_v17
  refine (Cert.Lib.dotGeneral_plain_apply _ none _ _ x4 e j).trans ?_
  rw [sum_split]
  simp only [v14_lo, v14_hi]
  rfl

theorem v19_at (e : Fin 500000) (j : Fin 256) : val_main_v19 (F := Ideal) x5 (ix2 e j) = x5 (ix1 j) := by
  rw [val_main_v19_apply, val_main_v18_apply]
  exact congrArg x5 (funext fun a => match a with | ⟨0, _⟩ => rfl)

theorem v21_at (e : Fin 500000) (j : Fin 256) : val_main_v21 (F := Ideal) x0 x1 x2 x3 x4 x5 (ix2 e j) = h1 x0 x1 x2 x3 x4 x5 e j := by
  rw [val_main_v21_apply, val_main_v20_apply, v17_at, v19_at]
  rfl

theorem v22_at (e : Fin 500000) (j : Fin 128) : val_main_v22 (F := Ideal) x0 x1 x2 x3 x4 x5 x6 (ix2 e j)
    = lin (h1 x0 x1 x2 x3 x4 x5 e) (fun k q => x6 (ix2 k q)) j := by
  unfold val_main_v22
  refine (Cert.Lib.dotGeneral_plain_apply _ none _ _ x6 e j).trans ?_
  simp only [v21_at]
  rfl

theorem v24_at (e : Fin 500000) (j : Fin 128) : val_main_v24 (F := Ideal) x7 (ix2 e j) = x7 (ix1 j) := by
  rw [val_main_v24_apply, val_main_v23_apply]
  exact congrArg x7 (funext fun a => match a with | ⟨0, _⟩ => rfl)

theorem v26_at (e : Fin 500000) (j : Fin 128) : val_main_v26 (F := Ideal) x0 x1 x2 x3 x4 x5 x6 x7 (ix2 e j) = h2 x0 x1 x2 x3 x4 x5 x6 x7 e j := by
  rw [val_main_v26_apply, val_main_v25_apply, v22_at, v24_at]
  rfl

theorem v27_at (e : Fin 500000) (j : Fin 64) : val_main_v27 (F := Ideal) x0 x1 x2 x3 x4 x5 x6 x7 x8 (ix2 e j)
    = lin (h2 x0 x1 x2 x3 x4 x5 x6 x7 e) (fun k q => x8 (ix2 k q)) j := by
  unfold val_main_v27
  refine (Cert.Lib.dotGeneral_plain_apply _ none _ _ x8 e j).trans ?_
  simp only [v26_at]
  rfl

theorem v29_at (e : Fin 500000) (j : Fin 64) : val_main_v29 (F := Ideal) x9 (ix2 e j) = x9 (ix1 j) := by
  rw [val_main_v29_apply, val_main_v28_apply]
  exact congrArg x9 (funext fun a => match a with | ⟨0, _⟩ => rfl)

theorem v31_at (e : Fin 500000) (j : Fin 64) : val_main_v31 (F := Ideal) x0 x1 x2 x3 x4 x5 x6 x7 x8 x9 (ix2 e j) = h3 x0 x1 x2 x3 x4 x5 x6 x7 x8 x9 e j := by
  rw [val_main_v31_apply, val_main_v30_apply, v27_at, v29_at]
  rfl

theorem v32_at (e : Fin 500000) (u : Fin 1) : val_main_v32 (F := Ideal) x0 x1 x2 x3 x4 x5 x6 x7 x8 x9 x10 (ix2 e u)
    = lin (h3 x0 x1 x2 x3 x4 x5 x6 x7 x8 x9 e) (fun k q => x10 (ix2 k q)) u := by
  unfold val_main_v32
  refine (Cert.Lib.dotGeneral_plain_apply _ none _ _ x10 e u).trans ?_
  simp only [v31_at]
  rfl

theorem v34_at (e : Fin 500000) (u : Fin 1) : val_main_v34 (F := Ideal) x11 (ix2 e u) = x11 (ix1 u) := by
  rw [val_main_v34_apply, val_main_v33_apply]
  exact congrArg x11 (funext fun a => match a with | ⟨0, _⟩ => Subsingleton.elim (α := Fin 1) _ _)

/-- The perceptron's output at edge e. -/
theorem v36_at (e : Fin 500000) : val_main_v36 (F := Ideal) x0 x1 x2 x3 x4 x5 x6 x7 x8 x9 x10 x11 (ix1 e)
    = mlp (sRow x0 x2 e) (dRow x1 x3 e) (fun k q => x4 (ix2 (lo k) q)) (fun k q => x4 (ix2 (hi k) q)) (fun q => x5 (ix1 q))
        (fun k q => x6 (ix2 k q)) (fun q => x7 (ix1 q)) (fun k q => x8 (ix2 k q)) (fun q => x9 (ix1 q))
        (fun k q => x10 (ix2 k q)) (fun q => x11 (ix1 q)) := by
  have hi36 : idx_main_v36 (ix1 e) = ix2 e (0 : Fin 1) := funext fun a => match a with
    | ⟨0, _⟩ => Fin.ext (Nat.div_one _)
    | ⟨1, _⟩ => rfl
  rw [val_main_v36_apply, hi36, val_main_v35_apply, v32_at, v34_at]
  rfl

/-! ## The gate -/

/-- The gate's hidden layer at edge e. -/
def g1 (e : Fin 500000) : Fin 64 → EReal :=
  hiddenPair (sRow x0 x2 e) (dRow x1 x3 e) (fun k q => x12 (ix2 (lo k) q)) (fun k q => x12 (ix2 (hi k) q)) (fun q => x13 (ix1 q))
/-- The gate's two logits at edge e. -/
def zRow (e : Fin 500000) : Fin 2 → EReal :=
  logits (sRow x0 x2 e) (dRow x1 x3 e) (fun k q => x12 (ix2 (lo k) q)) (fun k q => x12 (ix2 (hi k) q)) (fun q => x13 (ix1 q))
    (fun k q => x14 (ix2 k q)) (fun q => x15 (ix1 q))

theorem v37_at (e : Fin 500000) (j : Fin 64) : val_main_v37 (F := Ideal) x0 x1 x2 x3 x12 (ix2 e j)
    = lin (sRow x0 x2 e) (fun k q => x12 (ix2 (lo k) q)) j + lin (dRow x1 x3 e) (fun k q => x12 (ix2 (hi k) q)) j := by
  unfold val_main_v37
  refine (Cert.Lib.dotGeneral_plain_apply _ none _ _ x12 e j).trans ?_
  rw [sum_split]
  simp only [v14_lo, v14_hi]
  rfl

theorem v39_at (e : Fin 500000) (j : Fin 64) : val_main_v39 (F := Ideal) x13 (ix2 e j) = x13 (ix1 j) := by
  rw [val_main_v39_apply, val_main_v38_apply]
  exact congrArg x13 (funext fun a => match a with | ⟨0, _⟩ => rfl)

theorem v41_at (e : Fin 500000) (j : Fin 64) : val_main_v41 (F := Ideal) x0 x1 x2 x3 x12 x13 (ix2 e j) = g1 x0 x1 x2 x3 x12 x13 e j := by
  rw [val_main_v41_apply, val_main_v40_apply, v37_at, v39_at]
  rfl

theorem v42_at (e : Fin 500000) (j : Fin 2) : val_main_v42 (F := Ideal) x0 x1 x2 x3 x12 x13 x14 (ix2 e j)
    = lin (g1 x0 x1 x2 x3 x12 x13 e) (fun k q => x14 (ix2 k q)) j := by
  unfold val_main_v42
  refine (Cert.Lib.dotGeneral_plain_apply _ none _ _ x14 e j).trans ?_
  simp only [v41_at]
  rfl

theorem v44_at (e : Fin 500000) (j : Fin 2) : val_main_v44 (F := Ideal) x15 (ix2 e j) = x15 (ix1 j) := by
  rw [val_main_v44_apply, val_main_v43_apply]
  exact congrArg x15 (funext fun a => match a with | ⟨0, _⟩ => rfl)

theorem v45_at (e : Fin 500000) (j : Fin 2) : val_main_v45 (F := Ideal) x0 x1 x2 x3 x12 x13 x14 x15 (ix2 e j) = zRow x0 x1 x2 x3 x12 x13 x14 x15 e j := by
  rw [val_main_v45_apply, v42_at, v44_at]
  rfl

/-- The larger logit, as computed. -/
theorem v48_at (e : Fin 500000) : val_main_v48 (F := Ideal) x0 x1 x2 x3 x12 x13 x14 x15 (ix1 e) = pairMax (zRow x0 x1 x2 x3 x12 x13 x14 x15 e) := by
  have h46 : val_main_v46 (F := Ideal) x0 x1 x2 x3 x12 x13 x14 x15 (ix1 e)
      = (Finset.univ : Finset (Fin 2)).fold max negInf (zRow x0 x1 x2 x3 x12 x13 x14 x15 e) := by
    unfold val_main_v46
    refine (Cert.Lib.hostRowMax_apply _ _ _ (by decide) _ e).trans ?_
    simp only [v45_at]
    rfl
  rw [val_main_v48_apply, h46]
  rfl

theorem v50_at (e : Fin 500000) (j : Fin 2) : val_main_v50 (F := Ideal) x0 x1 x2 x3 x12 x13 x14 x15 (ix2 e j) = pairMax (zRow x0 x1 x2 x3 x12 x13 x14 x15 e) := by
  have hi : idx_main_v49 (idx_main_v50 (ix2 e j)) = ix1 e := funext fun a => match a with | ⟨0, _⟩ => rfl
  rw [val_main_v50_apply, val_main_v49_apply, hi, v48_at]

theorem v52_at (e : Fin 500000) (j : Fin 2) : val_main_v52 (F := Ideal) x0 x1 x2 x3 x12 x13 x14 x15 (ix2 e j)
    = Ideal.exp (zRow x0 x1 x2 x3 x12 x13 x14 x15 e j - pairMax (zRow x0 x1 x2 x3 x12 x13 x14 x15 e)) := by
  rw [val_main_v52_apply, val_main_v51_apply, v45_at, v50_at]
  rfl

theorem v55_at (e : Fin 500000) (j : Fin 2) : val_main_v55 (F := Ideal) x0 x1 x2 x3 x12 x13 x14 x15 (ix2 e j)
    = ∑ k : Fin 2, Ideal.exp (zRow x0 x1 x2 x3 x12 x13 x14 x15 e k - pairMax (zRow x0 x1 x2 x3 x12 x13 x14 x15 e)) := by
  have h53 : val_main_v53 (F := Ideal) x0 x1 x2 x3 x12 x13 x14 x15 (ix1 e)
      = ∑ k : Fin 2, Ideal.exp (zRow x0 x1 x2 x3 x12 x13 x14 x15 e k - pairMax (zRow x0 x1 x2 x3 x12 x13 x14 x15 e)) := by
    unfold val_main_v53
    refine (Cert.Lib.hostRowSum_apply _ _ _ (by decide) _ e).trans ?_
    show Ideal.ofBits .f32 0x00000000#32 + _ = _
    rw [Ideal.ofBits_zero_f32, zero_add]
    simp only [v52_at]
  have hi : idx_main_v54 (idx_main_v55 (ix2 e j)) = ix1 e := funext fun a => match a with | ⟨0, _⟩ => rfl
  rw [val_main_v55_apply, val_main_v54_apply, hi, h53]

theorem v56_at (e : Fin 500000) (j : Fin 2) : val_main_v56 (F := Ideal) x0 x1 x2 x3 x12 x13 x14 x15 (ix2 e j) = gate (zRow x0 x1 x2 x3 x12 x13 x14 x15 e) j := by
  rw [val_main_v56_apply, v52_at, v55_at]
  rfl

theorem v58_at (e : Fin 500000) : val_main_v58 (F := Ideal) x0 x1 x2 x3 x12 x13 x14 x15 (ix1 e) = gate (zRow x0 x1 x2 x3 x12 x13 x14 x15 e) 0 := by
  have hi : idx_main_v57 (idx_main_v58 (ix1 e)) = ix2 e (0 : Fin 2) := funext fun a => match a with
    | ⟨0, _⟩ => Fin.ext (Nat.div_one _)
    | ⟨1, _⟩ => rfl
  rw [val_main_v58_apply, val_main_v57_apply, hi, v56_at]

theorem v61_at (e : Fin 500000) : val_main_v61 (F := Ideal) x0 x1 x2 x3 x12 x13 x14 x15 (ix1 e) = gate (zRow x0 x1 x2 x3 x12 x13 x14 x15 e) 1 := by
  have hi : idx_main_v60 (idx_main_v61 (ix1 e)) = ix2 e (1 : Fin 2) := funext fun a => match a with
    | ⟨0, _⟩ => Fin.ext (Nat.div_one _)
    | ⟨1, _⟩ => rfl
  rw [val_main_v61_apply, val_main_v60_apply, hi, v56_at]

/-! ## The result -/

/-- THE REFERENCE'S RESULT AT EDGE e is the score of the edge whose rows are the two gathered rows. -/
theorem result_at (e : Fin 500000) : val_main_v63 (F := Ideal) x0 x1 x2 x3 x4 x5 x6 x7 x8 x9 x10 x11 x12 x13 x14 x15 (ix1 e)
    = scoreArr x0 x1 (srcRow x2) (dstRow x3) x4 x5 x6 x7 x8 x9 x10 x11 x12 x13 x14 x15 (ix1 e) := by
  rw [val_main_v63_apply, val_main_v59_apply, val_main_v62_apply, v58_at, v16_at, v61_at, v36_at]
  rfl

end Cert.ReferenceIdeal.RowValue

end
-- ==== Proof.lean ====
/-
  The score of every edge of a bipartite graph, computed two ways, is one function on the extended reals.

  Each of the 500000 edges reads a row s of the user table and a row d of the item table (128 entries each) and gets the score
      g₀ · ⟨s, d⟩ + g₁ · mlp (s, d),
  where mlp is a four-layer perceptron on the joined 256-entry row (s, d) and (g₀, g₁) is the two-way softmax of a second,
  two-layer perceptron on the same row (Proof/EdgeScore.lean states it).

  The reference gathers the rows, joins them, and runs everything on [500000, ·] arrays. The kernel gathers the rows on the
  host, then runs one body over 125 blocks of 4000 edges; it never joins the two rows: a first layer's product of the joined row
  with a 256-row weight matrix is computed as the product of s with the matrix's first 128 rows plus the product of d with
  its last 128 rows. That is the one law the equality needs — a sum over 256 positions is the sum over the first 128 plus
  the sum over the last 128 — and it uses only commutativity and associativity of addition, so it holds at the infinities
  too: the finiteness of the inputs is never opened. Everything else is the same operation on both sides (a change of
  float format is the identity on the extended reals, a matrix product into a zero accumulator is the plain sum of products,
  a lane sum is the row's sum, the softmax is spelt identically), read row by row:

    * Proof/KernelRow.lean   — the kernel's body at row r of a block is the score of that row's edge;
    * Proof/KernelBlocks.lean — the 125 stored blocks are the restrictions of one whole-array function and tile the output;
    * Proof/KernelRun.lean   — the host's gathers, slices and re-layings read at an index: the kernel's result from its arguments;
    * Proof/RefRow.lean      — the reference's result at edge e is the same score.

  The three frames are the generated ones (the reference's is its generated run with the result dropped); the ideal pass
  rewrote nothing, so there is nothing to preserve.
-/
import proofs.«149136_j38173669327127_2_alg».proof.Defs
import proofs.«149136_j38173669327127_2_alg».proof.Proof.Gen.Kernel
import proofs.«149136_j38173669327127_2_alg».proof.Proof.Gen.Kernel.Skeleton
import proofs.«149136_j38173669327127_2_alg».proof.Proof.Gen.Kernel.Launch
import proofs.«149136_j38173669327127_2_alg».proof.Proof.Gen.Kernel.Points
import proofs.«149136_j38173669327127_2_alg».proof.Proof.Gen.Kernel.Frame
import proofs.«149136_j38173669327127_2_alg».proof.Proof.Gen.KernelIdeal
import proofs.«149136_j38173669327127_2_alg».proof.Proof.Gen.KernelIdeal.Skeleton
import proofs.«149136_j38173669327127_2_alg».proof.Proof.Gen.KernelIdeal.Launch
import proofs.«149136_j38173669327127_2_alg».proof.Proof.Gen.KernelIdeal.Points
import proofs.«149136_j38173669327127_2_alg».proof.Proof.Gen.KernelIdeal.Frame
import proofs.«149136_j38173669327127_2_alg».proof.Proof.Gen.ReferenceIdeal
import proofs.«149136_j38173669327127_2_alg».proof.Proof.Gen.Pre_finite_inputs
import proofs.«149136_j38173669327127_2_alg».proof.Proof.Gen.ReferenceIdeal.Run
import proofs.«149136_j38173669327127_2_alg».proof.Proof.Gen.ReferenceIdeal.Read
import proofs.«149136_j38173669327127_2_alg».proof.Proof.KernelRun
import proofs.«149136_j38173669327127_2_alg».proof.Proof.RefRow
import Idealize.ShloMosaic.Adequacy
import Idealize.ShloMosaic.Init

set_option maxRecDepth 16384

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the score of every edge from the argument arrays, and the arrays agree. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  rw [Cert.ReferenceIdeal.Read.val_main_v63_eq, a0, a1, a2, a3, a4, a5, a6, a7, a8, a9, a10, a11, a12, a13, a14, a15]
  funext i
  obtain ⟨e, rfl⟩ : ∃ e : Fin 500000, i = ix1 e := ⟨i 0, eq_ix1 i⟩
  exact Cert.ReferenceIdeal.RowValue.result_at _ _ _ _ _ _ _ _ _ _ _ _ _ _ _ _ e

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
